-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x8 : Shape := ⟨2, ![128, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  main_v53

def fn_part2 {F : FTy → Type} [FloatOps F] (main_arg9 : FVec F S128x1 .f32) (main_arg10 : FVec F S1 .f32) (main_arg11 : FVec F S128x8 .f32) (main_arg12 : FVec F S8 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x8 .f32 := Host.absf main_arg11
  let main_cst_16 : FVec F S_ .f32 := constant S_ .f32 0x7F800000#32
  let main_v45 : FVec F S128x8 .f32 := broadcastInDim S128x8 ![] bcast_S_S128x8 main_cst_16
  let main_v46 : IVec S128x8 1 := cmpf .olt main_v44 main_v45
  let main_c_17 : IVec S_ 1 := constantI S_ 1 1#1
  let main_v47 : IVec S_ 1 := (fun x v => Host.reduce IntOp.andi x v reducesTo_S128x8_S_d0_1 h_S_) main_v46 main_c_17
  let main_v48 : IVec S_ 1 := andi main_v43 main_v47
  let main_v49 : FVec F S8 .f32 := Host.absf main_arg12
  let main_cst_18 : FVec F S_ .f32 := constant S_ .f32 0x7F800000#32
  let main_v50 : FVec F S8 .f32 := broadcastInDim S8 ![] bcast_S_S8 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x1 .f32) (main_arg10 : FVec F S1 .f32) (main_arg11 : FVec F S128x8 .f32) (main_arg12 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) (main_arg11 : FVec F S128x8 .f32) (main_arg12 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x8 : Shape := ⟨2, ![128, 8]⟩
abbrev S8 : Shape := ⟨1, ![8]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S1x128 : Shape := ⟨2, ![1, 128]⟩
abbrev S100000x8 : Shape := ⟨2, ![100000, 8]⟩
abbrev S5000x8 : Shape := ⟨2, ![5000, 8]⟩
abbrev S5000 : Shape := ⟨1, ![5000]⟩
abbrev S5000x1 : Shape := ⟨2, ![5000, 1]⟩
abbrev S1x8 : Shape := ⟨2, ![1, 8]⟩

abbrev nBuf : Space → Nat
  | .hbm => 105
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S128x8, .f32⟩
  | .hbm, ⟨12, _⟩ => ⟨S8, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .i1⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000, .f32⟩
  | .hbm, ⟨41, _⟩ => ⟨S_, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S100000x1, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x128, .f32⟩
  | .hbm, ⟨97, _⟩ => ⟨S_, .f32⟩
  | .hbm, ⟨98, _⟩ => ⟨S100000x128, .f32⟩
  | .hbm, ⟨99, _⟩ => ⟨S1600000x1, .i32⟩
  | .hbm, ⟨100, _⟩ => ⟨S100000x128, .f32⟩
  | .hbm, ⟨101, _⟩ => ⟨S100000x1, .f32⟩
  | .hbm, ⟨102, _⟩ => ⟨S100000x128, .f32⟩
  | .hbm, ⟨103, _⟩ => ⟨S100000x128, .f32⟩
  | .hbm, ⟨104, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128, .f32⟩
  | .local _ .vmem, ⟨16, _⟩ => ⟨S128x1, .f32⟩
  | .local _ .vmem, ⟨17, _⟩ => ⟨S1, .f32⟩
  | .local _ .vmem, ⟨18, _⟩ => ⟨S128x8, .f32⟩
  | .local _ .vmem, ⟨19, _⟩ => ⟨S8, .f32⟩
  | .local _ .vmem, ⟨20, _⟩ => ⟨S5000x8, .f32⟩
  | .local _ .vmem, ⟨21, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v12 : Ref sig .tc := ⟨.hbm, 33, rfl⟩
abbrev main_cst_5 : Ref sig .tc := ⟨.hbm, 34, rfl⟩
abbrev main_v13 : Ref sig .tc := ⟨.hbm, 35, rfl⟩
abbrev main_v14 : Ref sig .tc := ⟨.hbm, 36, rfl⟩
abbrev main_cst_6 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_7 : Ref sig .tc := ⟨.hbm, 41, rfl⟩
abbrev main_call1_v0 : Ref sig .tc := ⟨.hbm, 42, rfl⟩
abbrev main_call1_v1 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c : Ref sig .tc := ⟨.hbm, 48, rfl⟩
abbrev main_v22 : Ref sig .tc := ⟨.hbm, 49, rfl⟩
abbrev main_v23 : Ref sig .tc := ⟨.hbm, 50, rfl⟩
abbrev main_c_8 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_9 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_10 : Ref sig .tc := ⟨.hbm, 68, rfl⟩
abbrev main_v39 : Ref sig .tc := ⟨.hbm, 69, rfl⟩
abbrev main_v40 : Ref sig .tc := ⟨.hbm, 70, rfl⟩
abbrev main_c_11 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_12 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_13 : Ref sig .tc := ⟨.hbm, 88, rfl⟩
abbrev main_v56 : Ref sig .tc := ⟨.hbm, 89, rfl⟩
abbrev main_v57 : Ref sig .tc := ⟨.hbm, 90, rfl⟩
abbrev main_c_14 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_15 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S8 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  shapeCasts_S128x1_S128 : S128x1.ShapeCasts S128
  inb_S1_S1_0 : ∀ a, (![0] : Fin 1 → Nat) a + S1.size a ≤ S1.size a
  h_S1 : 0 < S1.numel
  inpos_S1_p0 : ∀ a, (![0] : Fin 1 → Nat) a < S1.size a
  reduces_S5000x128_S5000 : S5000x128.Reduces [1] S5000
  shapeCasts_S5000_S5000x1 : S5000.ShapeCasts S5000x1
  broadcasts_S5000x1_S5000x128 : S5000x1.Broadcasts S5000x128
  inb_S128x8_S128x8_0_0 : ∀ a, (![0, 0] : Fin 2 → Nat) a + S128x8.size a ≤ S128x8.size a
  h_S128x8 : 0 < S128x8.numel
  inb_S8_S8_0 : ∀ a, (![0] : Fin 1 → Nat) a + S8.size a ≤ S8.size a
  h_S8 : 0 < S8.numel
  shapeCasts_S8_S1x8 : S8.ShapeCasts S1x8
  broadcasts_S1x8_S5000x8 : S1x8.Broadcasts S5000x8
  reduces_S5000x8_S5000 : S5000x8.Reduces [1] S5000
  broadcasts_S5000x1_S5000x8 : S5000x1.Broadcasts S5000x8
  inb_S5000x8_S5000x8_0_0 : ∀ a, (![0, 0] : Fin 2 → Nat) a + S5000x8.size a ≤ S5000x8.size a
  h_S5000x8 : 0 < S5000x8.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x8_S5000x8_1_0_0_1_n_n_wf : DotDims.WF S5000x128 S128x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x8.size a ≤ S128x8.size a
  hwx2_5 : ∀ i : grid2.Coords, EltTy.bits .f32 = 32 ∨ (Rect.block (s := S128x8) S128x8.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S8.size a ≤ S8.size a
  hwx2_6 : ∀ i : grid2.Coords, EltTy.bits .f32 = 32 ∨ (Rect.block (s := S8) S8.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x8.size a ≤ S100000x8.size a
  hwx2_7 : ∀ i : grid2.Coords, EltTy.bits .f32 = 32 ∨ (Rect.block (s := S100000x8) S5000x8.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf

abbrev win0_0 : Pipeline.Window sig grid0 :=
  Pipeline.Window.ofSpec (Memref.whole main_v34) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v68) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S8.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v69) S5000x8.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x8 : Shape := ⟨2, ![128, 8]⟩
abbrev S8 : Shape := ⟨1, ![8]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S1x1 : Shape := ⟨2, ![1, 1]⟩
abbrev S100000x8 : Shape := ⟨2, ![100000, 8]⟩
abbrev S1x8 : Shape := ⟨2, ![1, 8]⟩

abbrev nBuf : Space → Nat
  | .hbm => 155
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S128x8, .f32⟩
  | 12 => ⟨S8, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S100000x1, .f32⟩
  | 46 => ⟨S100000x128, .f32⟩
  | 47 => ⟨S100000x128, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000x1, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x1, .f32⟩
  | 72 => ⟨S100000x128, .f32⟩
  | 73 => ⟨S100000x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S100000x1, .f32⟩
  | 88 => ⟨S100000x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x1, .f32⟩
  | 98 => ⟨S100000x128, .f32⟩
  | 99 => ⟨S100000x128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S100000x1, .f32⟩
  | 114 => ⟨S100000x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x1, .f32⟩
  | 124 => ⟨S1x1, .f32⟩
  | 125 => ⟨S100000x1, .f32⟩
  | 126 => ⟨S100000x1, .f32⟩
  | 127 => ⟨S100000x1, .f32⟩
  | _ => ⟨S100000x128, .f32⟩

abbrev hbmTy0_1 (i : Nat) : BufTy := match i % 128 with
  | 0 => ⟨S100000x1, .f32⟩
  | 1 => ⟨S_, .f32⟩
  | 2 => ⟨S100000x1, .f32⟩
  | 3 => ⟨S100000x1, .f32⟩
  | 4 => ⟨S_, .f32⟩
  | 5 => ⟨S100000x1, .f32⟩
  | 6 => ⟨S100000x1, .f32⟩
  | 7 => ⟨S100000x128, .f32⟩
  | 8 => ⟨S100000x128, .f32⟩
  | 9 => ⟨S100000x8, .f32⟩
  | 10 => ⟨S1x8, .f32⟩
  | 11 => ⟨S100000x8, .f32⟩
  | 12 => ⟨S100000x8, .f32⟩
  | 13 => ⟨S_, .f32⟩
  | 14 => ⟨S100000, .f32⟩
  | 15 => ⟨S_, .f32⟩
  | 16 => ⟨S100000, .f32⟩
  | 17 => ⟨S100000, .f32⟩
  | 18 => ⟨S100000x1, .f32⟩
  | 19 => ⟨S100000x8, .f32⟩
  | 20 => ⟨S100000x8, .f32⟩
  | 21 => ⟨S100000x8, .f32⟩
  | 22 => ⟨S_, .f32⟩
  | 23 => ⟨S100000, .f32⟩
  | 24 => ⟨S100000x1, .f32⟩
  | 25 => ⟨S100000x8, .f32⟩
  | 26 => ⟨S100000x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v12 : Ref sig .tc := ⟨.hbm, 33, rfl⟩
abbrev main_cst_5 : Ref sig .tc := ⟨.hbm, 34, rfl⟩
abbrev main_v13 : Ref sig .tc := ⟨.hbm, 35, rfl⟩
abbrev main_v14 : Ref sig .tc := ⟨.hbm, 36, rfl⟩
abbrev main_cst_6 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_7 : Ref sig .tc := ⟨.hbm, 41, rfl⟩
abbrev main_call1_v0 : Ref sig .tc := ⟨.hbm, 42, rfl⟩
abbrev main_call1_v1 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c : Ref sig .tc := ⟨.hbm, 48, rfl⟩
abbrev main_v22 : Ref sig .tc := ⟨.hbm, 49, rfl⟩
abbrev main_v23 : Ref sig .tc := ⟨.hbm, 50, rfl⟩
abbrev main_c_8 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_9 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call2_cst : Ref sig .tc := ⟨.hbm, 68, rfl⟩
abbrev main_call2_v0 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_10 : Ref sig .tc := ⟨.hbm, 74, rfl⟩
abbrev main_v43 : Ref sig .tc := ⟨.hbm, 75, rfl⟩
abbrev main_v44 : Ref sig .tc := ⟨.hbm, 76, rfl⟩
abbrev main_c_11 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_12 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_call3_cst : Ref sig .tc := ⟨.hbm, 94, rfl⟩
abbrev main_call3_v0 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_13 : Ref sig .tc := ⟨.hbm, 100, rfl⟩
abbrev main_v64 : Ref sig .tc := ⟨.hbm, 101, rfl⟩
abbrev main_v65 : Ref sig .tc := ⟨.hbm, 102, rfl⟩
abbrev main_c_14 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_15 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_call4_cst : Ref sig .tc := ⟨.hbm, 120, rfl⟩
abbrev main_call4_v0 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_16 : Ref sig .tc := ⟨.hbm, 129, rfl⟩
abbrev main_v88 : Ref sig .tc := ⟨.hbm, 130, rfl⟩
abbrev main_v89 : Ref sig .tc := ⟨.hbm, 131, rfl⟩
abbrev main_cst_17 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_18 : Ref sig .tc := ⟨.hbm, 141, rfl⟩
abbrev main_v98 : Ref sig .tc := ⟨.hbm, 142, rfl⟩
abbrev main_cst_19 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_20 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000x1_S100000x8_0_1 : S100000x1.BroadcastsInDim S100000x8 (![0, 1] : Fin 2 → Fin S100000x8.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  dot_S100000x128_S128x8_S100000x8_1_0_0_1_n_n_wf : DotDims.WF S100000x128 S128x8 S100000x8 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf

class Facts : Prop extends Facts₀ where

variable [Facts]
-- ==== Proof.HostTerms.lean ====
/-
  The network's parts as terms of host operations, exactly as the reference program spells them.

  `degNorm` is the degree normalisation of one endpoint array e: count how often each node occurs (a scatter-add of ones),
  and give  rsqrt(max(count, 1))  where the count is positive and 0 elsewhere.  `aggregate` is one round of message passing:
  scale the rows of x by the source normalisation, gather a row per edge by `src` (negative indices wrapped by the node
  count), scatter-add the edge rows into their `dst` nodes, scale by the destination normalisation.  `denseLayer` is
  x·W + b followed by max with 0.  `gated`, `logits`, `softmax` are the head: rows scaled by 1/(1+e^(−score)), the
  classifier, and the softmax over the eight classes with the row maximum subtracted.
  The kernel's program applies the same host operations between its three kernel launches, so these same terms describe
  what its launches are given and what happens between them.
-/
import proofs.«149673_j85057532330070_1_alg».proof.ReferenceIdeal
import proofs.«149673_j85057532330070_1_alg».proof.Proof.Gen.ReferenceIdeal

noncomputable section

namespace Cert.Gnn

open Cert.ReferenceIdeal Cert.ReferenceIdeal.Gen Idealize.ShloMosaic

variable {F : FTy → Type} [FloatOps F]

/-- The degree normalisation of one endpoint array. -/
def degNorm (e : IVec S1600000 32) : FVec F S100000 .f32 :=
  (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 e) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 e) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))

/-- One round of message passing over the edges. -/
def aggregate (ns nd : FVec F S100000 .f32) (x : FVec F S100000x128 .f32) (src dst : IVec S1600000 32) : FVec F S100000x128 .f32 :=
  (mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 (mulf x (broadcastInDim S100000x128 ![0, 1] bcast_S100000x1_S100000x128_0_1 (broadcastInDim S100000x1 ![0] bcast_S100000_S100000x1_0 ns))) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 nd)))

/-- A dense layer with its rectifier. -/
def denseLayer (a : FVec F S100000x128 .f32) (w : FVec F S128x128 .f32) (b : FVec F S128 .f32) : FVec F S100000x128 .f32 :=
  (maximumf (addf (Host.dotGeneral dot_S100000x128_S128x128_S100000x128_1_0_0_1_n_n none a w) (broadcastInDim S100000x128 ![0, 1] bcast_S1x128_S100000x128_0_1 (broadcastInDim S1x128 ![1] bcast_S128_S1x128_1 b))) (broadcastInDim S100000x128 ![] bcast_S_S100000x128 (constant S_ .f32 0x00000000#32)))

/-- The hidden rows scaled by their attention gates. -/
def gated (h : FVec F S100000x128 .f32) (aw : FVec F S128x1 .f32) (ab : FVec F S1 .f32) : FVec F S100000x128 .f32 :=
  (mulf h (broadcastInDim S100000x128 ![0, 1] bcast_S100000x1_S100000x128_0_1 (Host.divf (broadcastInDim S100000x1 ![] bcast_S_S100000x1 (constant S_ .f32 0x3F800000#32)) (addf (broadcastInDim S100000x1 ![] bcast_S_S100000x1 (constant S_ .f32 0x3F800000#32)) (Host.exp (Host.negf (addf (Host.dotGeneral dot_S100000x128_S128x1_S100000x1_1_0_0_1_n_n none h aw) (broadcastInDim S100000x1 ![0, 1] bcast_S1x1_S100000x1_0_1 (broadcastInDim S1x1 ![1] bcast_S1_S1x1_1 ab)))))))))

/-- The classifier on the gated rows. -/
def logits (g : FVec F S100000x128 .f32) (fw : FVec F S128x8 .f32) (fb : FVec F S8 .f32) : FVec F S100000x8 .f32 :=
  (addf (Host.dotGeneral dot_S100000x128_S128x8_S100000x8_1_0_0_1_n_n none g fw) (broadcastInDim S100000x8 ![0, 1] bcast_S1x8_S100000x8_0_1 (broadcastInDim S1x8 ![1] bcast_S8_S1x8_1 fb)))

/-- The softmax over the classes, row by row. -/
def softmax (z : FVec F S100000x8 .f32) : FVec F S100000x8 .f32 :=
  Host.divf (Host.exp (subf z (broadcastInDim S100000x8 ![0, 1] bcast_S100000x1_S100000x8_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x8_S100000_d1 h_S_)))))) (broadcastInDim S100000x8 ![0, 1] bcast_S100000x1_S100000x8_0_1 (broadcastInDim S100000x1 ![0] bcast_S100000_S100000x1_0 (Host.reduceAdd (Host.exp (subf z (broadcastInDim S100000x8 ![0, 1] bcast_S100000x1_S100000x8_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x8_S100000_d1 h_S_)))))) (constant S_ .f32 0x00000000#32) reducesTo_S100000x8_S100000_d1 h_S_)))

/-- The whole network on the thirteen argument arrays. -/
def network (x0 : FVec F S100000x128 .f32) (x1 x2 : IVec S1600000 32) (x3 : FVec F S128x128 .f32) (x4 : FVec F S128 .f32)
    (x5 : FVec F S128x128 .f32) (x6 : FVec F S128 .f32) (x7 : FVec F S128x128 .f32) (x8 : FVec F S128 .f32)
    (x9 : FVec F S128x1 .f32) (x10 : FVec F S1 .f32) (x11 : FVec F S128x8 .f32) (x12 : FVec F S8 .f32) : FVec F S100000x8 .f32 :=
  softmax (logits (gated
    (denseLayer (aggregate (degNorm x1) (degNorm x2)
      (denseLayer (aggregate (degNorm x1) (degNorm x2)
        (denseLayer (aggregate (degNorm x1) (degNorm x2) x0 x1 x2) x3 x4) x1 x2) x5 x6) x1 x2) x7 x8)
    x9 x10) x11 x12)

end Cert.Gnn

end
-- ==== Proof.RefValue.lean ====
/-
  The reference's result is the network of HostTerms.lean on its thirteen argument arrays: the composed term of its 142
  host operations is, part by part, three rounds of aggregation and dense layer, then gate, classifier and softmax.
-/
import proofs.«149673_j85057532330070_1_alg».proof.Proof.RefRun
import proofs.«149673_j85057532330070_1_alg».proof.Proof.HostTerms

noncomputable section

namespace Cert.Gnn

open Cert.ReferenceIdeal Cert.ReferenceIdeal.Gen Idealize.ShloMosaic Idealize.ShloMosaic.TcCoe Idealize.SL.Sem

variable {F : FTy → Type} [FloatOps F]

set_option maxRecDepth 16384 in
/-- The run's composed term is the network on the launch contents of the arguments. -/
theorem ref_result (m : (ℓ : Loc nD τ sig) → Buf (Elt F) ℓ) (c : Dev nD) :
    Cert.ReferenceIdeal.RunP.res_main_v108 m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold Cert.ReferenceIdeal.RunP.res_main_v108 network
  rfl

end Cert.Gnn

end
-- ==== Proof.KernelHost.lean ====
/-
  What the kernel program's host operations compute, and which buffers they leave alone.

  Before the first launch the host computes the two degree normalisations and the first aggregation; between launches
  it aggregates the previous launch's output. Those stretches apply the very operations the reference applies, so at
  each boundary the buffer a launch is about to read holds an `aggregate` of HostTerms.lean, the two normalisations are
  `degNorm` of the endpoint arrays, and every argument array still holds its launch contents: no host operation writes an
  argument or a normalisation once computed, and a launch writes only its output array.
-/
import proofs.«149673_j85057532330070_1_alg».proof.Proof.Gen.KernelIdeal.Frame
import proofs.«149673_j85057532330070_1_alg».proof.Proof.HostTerms

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo
open Idealize.ShloMosaic.Pipeline (Dat)
open Cert.Gnn

variable {F : FTy → Type} [FloatOps F]

/-- A buffer none of a stretch's operations writes keeps its contents through the stretch. -/
macro "kept_through" ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The stretches on any contents -/

set_option maxHeartbeats 8000000 in
/-- The stretches before the first launch leave the first aggregation of the features in the launch's input. -/
theorem pre_v34 (X : Valuation τ sig (Elt F)) :
    after hostOps0_4 (after hostOps0_3 (after hostOps0_2 (after hostOps0_1 (after hostOps0 X)))) (Proc.devRef .tc main_v34)
      = aggregate (degNorm (X (Proc.devRef .tc main_arg1))) (degNorm (X (Proc.devRef .tc main_arg2))) (X (Proc.devRef .tc main_arg0))
          (X (Proc.devRef .tc main_arg1)) (X (Proc.devRef .tc main_arg2)) := by
  after_results_simp <;> rfl

set_option maxHeartbeats 8000000 in
/-- … and the source normalisation, -/
theorem pre_v12 (X : Valuation τ sig (Elt F)) :
    after hostOps0_4 (after hostOps0_3 (after hostOps0_2 (after hostOps0_1 (after hostOps0 X)))) (Proc.devRef .tc main_v12)
      = degNorm (X (Proc.devRef .tc main_arg1)) := by
  after_results_simp <;> rfl

set_option maxHeartbeats 8000000 in
/-- … and the destination normalisation. -/
theorem pre_v18 (X : Valuation τ sig (Elt F)) :
    after hostOps0_4 (after hostOps0_3 (after hostOps0_2 (after hostOps0_1 (after hostOps0 X)))) (Proc.devRef .tc main_v18)
      = degNorm (X (Proc.devRef .tc main_arg2)) := by
  after_results_simp <;> rfl

set_option maxHeartbeats 8000000 in
/-- The stretch after the first launch aggregates the launch's output. -/
theorem agg1 (X : Valuation τ sig (Elt F)) :
    after hostOps1 X (Proc.devRef .tc main_v51)
      = aggregate (X (Proc.devRef .tc main_v12)) (X (Proc.devRef .tc main_v18)) (X (Proc.devRef .tc main_v35)) (X (Proc.devRef .tc main_arg1)) (X (Proc.devRef .tc main_arg2)) := by
  after_results_simp <;> rfl

set_option maxHeartbeats 8000000 in
/-- The stretch after the second launch aggregates that launch's output. -/
theorem agg2 (X : Valuation τ sig (Elt F)) :
    after hostOps2 X (Proc.devRef .tc main_v68)
      = aggregate (X (Proc.devRef .tc main_v12)) (X (Proc.devRef .tc main_v18)) (X (Proc.devRef .tc main_v52)) (X (Proc.devRef .tc main_arg1)) (X (Proc.devRef .tc main_arg2)) := by
  after_results_simp <;> rfl

theorem keep1_v12 (X : Valuation τ sig (Elt F)) : after hostOps1 X (Proc.devRef .tc main_v12) = X (Proc.devRef .tc main_v12) := by kept_through hostOps1
theorem keep1_v18 (X : Valuation τ sig (Elt F)) : after hostOps1 X (Proc.devRef .tc main_v18) = X (Proc.devRef .tc main_v18) := by kept_through hostOps1
theorem keep1_arg1 (X : Valuation τ sig (Elt F)) : after hostOps1 X (Proc.devRef .tc main_arg1) = X (Proc.devRef .tc main_arg1) := by kept_through hostOps1
theorem keep1_arg2 (X : Valuation τ sig (Elt F)) : after hostOps1 X (Proc.devRef .tc main_arg2) = X (Proc.devRef .tc main_arg2) := by kept_through hostOps1
theorem keep1_arg3 (X : Valuation τ sig (Elt F)) : after hostOps1 X (Proc.devRef .tc main_arg3) = X (Proc.devRef .tc main_arg3) := by kept_through hostOps1
theorem keep1_arg4 (X : Valuation τ sig (Elt F)) : after hostOps1 X (Proc.devRef .tc main_arg4) = X (Proc.devRef .tc main_arg4) := by kept_through hostOps1
theorem keep2_arg1 (X : Valuation τ sig (Elt F)) : after hostOps2 X (Proc.devRef .tc main_arg1) = X (Proc.devRef .tc main_arg1) := by kept_through hostOps2
theorem keep2_arg2 (X : Valuation τ sig (Elt F)) : after hostOps2 X (Proc.devRef .tc main_arg2) = X (Proc.devRef .tc main_arg2) := by kept_through hostOps2
theorem keep2_arg3 (X : Valuation τ sig (Elt F)) : after hostOps2 X (Proc.devRef .tc main_arg3) = X (Proc.devRef .tc main_arg3) := by kept_through hostOps2
theorem keep2_arg4 (X : Valuation τ sig (Elt F)) : after hostOps2 X (Proc.devRef .tc main_arg4) = X (Proc.devRef .tc main_arg4) := by kept_through hostOps2
theorem keep2_arg5 (X : Valuation τ sig (Elt F)) : after hostOps2 X (Proc.devRef .tc main_arg5) = X (Proc.devRef .tc main_arg5) := by kept_through hostOps2
theorem keep2_arg6 (X : Valuation τ sig (Elt F)) : after hostOps2 X (Proc.devRef .tc main_arg6) = X (Proc.devRef .tc main_arg6) := by kept_through hostOps2

/-! ## The boundaries of this run -/

variable (m : (ℓ : Loc nD τ sig) → Buf (Elt F) ℓ) (ρ : Dev nD → PrngReg)

/-- A launch leaves its input arrays as it found them. -/
theorem in0_arg3 (c : Dev nD) : W6 m ρ c (Proc.devRef .tc main_arg3) = W5 m ρ c (Proc.devRef .tc main_arg3) :=
  (W6_arr m ρ c 1).trans (((dat0 (V5 m ρ) c).arrAt_in 1 rfl _).trans (A_eq0 (V5 m ρ) c 1))
theorem in0_arg4 (c : Dev nD) : W6 m ρ c (Proc.devRef .tc main_arg4) = W5 m ρ c (Proc.devRef .tc main_arg4) :=
  (W6_arr m ρ c 2).trans (((dat0 (V5 m ρ) c).arrAt_in 2 rfl _).trans (A_eq0 (V5 m ρ) c 2))
theorem in1_arg5 (c : Dev nD) : W8 m ρ c (Proc.devRef .tc main_arg5) = W7 m ρ c (Proc.devRef .tc main_arg5) :=
  (W8_arr m ρ c 1).trans (((dat1 (V7 m ρ) c).arrAt_in 1 rfl _).trans (A_eq1 (V7 m ρ) c 1))
theorem in1_arg6 (c : Dev nD) : W8 m ρ c (Proc.devRef .tc main_arg6) = W7 m ρ c (Proc.devRef .tc main_arg6) :=
  (W8_arr m ρ c 2).trans (((dat1 (V7 m ρ) c).arrAt_in 2 rfl _).trans (A_eq1 (V7 m ρ) c 2))
theorem in2_arg7 (c : Dev nD) : W10 m ρ c (Proc.devRef .tc main_arg7) = W9 m ρ c (Proc.devRef .tc main_arg7) :=
  (W10_arr m ρ c 1).trans (((dat2 (V9 m ρ) c).arrAt_in 1 rfl _).trans (A_eq2 (V9 m ρ) c 1))
theorem in2_arg8 (c : Dev nD) : W10 m ρ c (Proc.devRef .tc main_arg8) = W9 m ρ c (Proc.devRef .tc main_arg8) :=
  (W10_arr m ρ c 2).trans (((dat2 (V9 m ρ) c).arrAt_in 2 rfl _).trans (A_eq2 (V9 m ρ) c 2))
theorem in2_arg9 (c : Dev nD) : W10 m ρ c (Proc.devRef .tc main_arg9) = W9 m ρ c (Proc.devRef .tc main_arg9) :=
  (W10_arr m ρ c 3).trans (((dat2 (V9 m ρ) c).arrAt_in 3 rfl _).trans (A_eq2 (V9 m ρ) c 3))
theorem in2_arg10 (c : Dev nD) : W10 m ρ c (Proc.devRef .tc main_arg10) = W9 m ρ c (Proc.devRef .tc main_arg10) :=
  (W10_arr m ρ c 4).trans (((dat2 (V9 m ρ) c).arrAt_in 4 rfl _).trans (A_eq2 (V9 m ρ) c 4))
theorem in2_arg11 (c : Dev nD) : W10 m ρ c (Proc.devRef .tc main_arg11) = W9 m ρ c (Proc.devRef .tc main_arg11) :=
  (W10_arr m ρ c 5).trans (((dat2 (V9 m ρ) c).arrAt_in 5 rfl _).trans (A_eq2 (V9 m ρ) c 5))
theorem in2_arg12 (c : Dev nD) : W10 m ρ c (Proc.devRef .tc main_arg12) = W9 m ρ c (Proc.devRef .tc main_arg12) :=
  (W10_arr m ρ c 6).trans (((dat2 (V9 m ρ) c).arrAt_in 6 rfl _).trans (A_eq2 (V9 m ρ) c 6))

/-- The arguments the head launch reads hold their launch contents when it starts. -/
theorem W9_arg7 (c : Dev nD) : W9 m ρ c (Proc.devRef .tc main_arg7) = m ((c : Thread nD τ).loc main_arg7) :=
  (in2_arg7 m ρ c).symm.trans (W10_main_arg7 m ρ c)
theorem W9_arg8 (c : Dev nD) : W9 m ρ c (Proc.devRef .tc main_arg8) = m ((c : Thread nD τ).loc main_arg8) :=
  (in2_arg8 m ρ c).symm.trans (W10_main_arg8 m ρ c)
theorem W9_arg9 (c : Dev nD) : W9 m ρ c (Proc.devRef .tc main_arg9) = m ((c : Thread nD τ).loc main_arg9) :=
  (in2_arg9 m ρ c).symm.trans (W10_main_arg9 m ρ c)
theorem W9_arg10 (c : Dev nD) : W9 m ρ c (Proc.devRef .tc main_arg10) = m ((c : Thread nD τ).loc main_arg10) :=
  (in2_arg10 m ρ c).symm.trans (W10_main_arg10 m ρ c)
theorem W9_arg11 (c : Dev nD) : W9 m ρ c (Proc.devRef .tc main_arg11) = m ((c : Thread nD τ).loc main_arg11) :=
  (in2_arg11 m ρ c).symm.trans (W10_main_arg11 m ρ c)
theorem W9_arg12 (c : Dev nD) : W9 m ρ c (Proc.devRef .tc main_arg12) = m ((c : Thread nD τ).loc main_arg12) :=
  (in2_arg12 m ρ c).symm.trans (W10_main_arg12 m ρ c)

/-- An argument no launch reads through a window, at the boundaries after the second and the first launch. -/
theorem W8_arg1 (c : Dev nD) : W8 m ρ c (Proc.devRef .tc main_arg1) = m ((c : Thread nD τ).loc main_arg1) :=
  ((keep2_arg1 (W8 m ρ c)).symm.trans (W10_of_ne m ρ c main_arg1 (by decide)).symm).trans (W10_main_arg1 m ρ c)
theorem W8_arg2 (c : Dev nD) : W8 m ρ c (Proc.devRef .tc main_arg2) = m ((c : Thread nD τ).loc main_arg2) :=
  ((keep2_arg2 (W8 m ρ c)).symm.trans (W10_of_ne m ρ c main_arg2 (by decide)).symm).trans (W10_main_arg2 m ρ c)
theorem W8_arg3 (c : Dev nD) : W8 m ρ c (Proc.devRef .tc main_arg3) = m ((c : Thread nD τ).loc main_arg3) :=
  ((keep2_arg3 (W8 m ρ c)).symm.trans (W10_of_ne m ρ c main_arg3 (by decide)).symm).trans (W10_main_arg3 m ρ c)
theorem W8_arg4 (c : Dev nD) : W8 m ρ c (Proc.devRef .tc main_arg4) = m ((c : Thread nD τ).loc main_arg4) :=
  ((keep2_arg4 (W8 m ρ c)).symm.trans (W10_of_ne m ρ c main_arg4 (by decide)).symm).trans (W10_main_arg4 m ρ c)
theorem W8_arg5 (c : Dev nD) : W8 m ρ c (Proc.devRef .tc main_arg5) = m ((c : Thread nD τ).loc main_arg5) :=
  ((keep2_arg5 (W8 m ρ c)).symm.trans (W10_of_ne m ρ c main_arg5 (by decide)).symm).trans (W10_main_arg5 m ρ c)
theorem W8_arg6 (c : Dev nD) : W8 m ρ c (Proc.devRef .tc main_arg6) = m ((c : Thread nD τ).loc main_arg6) :=
  ((keep2_arg6 (W8 m ρ c)).symm.trans (W10_of_ne m ρ c main_arg6 (by decide)).symm).trans (W10_main_arg6 m ρ c)
theorem W7_arg5 (c : Dev nD) : W7 m ρ c (Proc.devRef .tc main_arg5) = m ((c : Thread nD τ).loc main_arg5) := (in1_arg5 m ρ c).symm.trans (W8_arg5 m ρ c)
theorem W7_arg6 (c : Dev nD) : W7 m ρ c (Proc.devRef .tc main_arg6) = m ((c : Thread nD τ).loc main_arg6) := (in1_arg6 m ρ c).symm.trans (W8_arg6 m ρ c)
theorem W6_arg1 (c : Dev nD) : W6 m ρ c (Proc.devRef .tc main_arg1) = m ((c : Thread nD τ).loc main_arg1) :=
  ((keep1_arg1 (W6 m ρ c)).symm.trans (W8_of_ne m ρ c main_arg1 (by decide)).symm).trans (W8_arg1 m ρ c)
theorem W6_arg2 (c : Dev nD) : W6 m ρ c (Proc.devRef .tc main_arg2) = m ((c : Thread nD τ).loc main_arg2) :=
  ((keep1_arg2 (W6 m ρ c)).symm.trans (W8_of_ne m ρ c main_arg2 (by decide)).symm).trans (W8_arg2 m ρ c)
theorem W6_arg3 (c : Dev nD) : W6 m ρ c (Proc.devRef .tc main_arg3) = m ((c : Thread nD τ).loc main_arg3) :=
  ((keep1_arg3 (W6 m ρ c)).symm.trans (W8_of_ne m ρ c main_arg3 (by decide)).symm).trans (W8_arg3 m ρ c)
theorem W6_arg4 (c : Dev nD) : W6 m ρ c (Proc.devRef .tc main_arg4) = m ((c : Thread nD τ).loc main_arg4) :=
  ((keep1_arg4 (W6 m ρ c)).symm.trans (W8_of_ne m ρ c main_arg4 (by decide)).symm).trans (W8_arg4 m ρ c)
theorem W5_arg3 (c : Dev nD) : W5 m ρ c (Proc.devRef .tc main_arg3) = m ((c : Thread nD τ).loc main_arg3) := (in0_arg3 m ρ c).symm.trans (W6_arg3 m ρ c)
theorem W5_arg4 (c : Dev nD) : W5 m ρ c (Proc.devRef .tc main_arg4) = m ((c : Thread nD τ).loc main_arg4) := (in0_arg4 m ρ c).symm.trans (W6_arg4 m ρ c)

/-- What the first launch reads as its input block array: the first aggregation of the features. -/
theorem W5_v34 (c : Dev nD) : W5 m ρ c (Proc.devRef .tc main_v34)
    = aggregate (degNorm (m ((c : Thread nD τ).loc main_arg1))) (degNorm (m ((c : Thread nD τ).loc main_arg2))) (m ((c : Thread nD τ).loc main_arg0)) (m ((c : Thread nD τ).loc main_arg1)) (m ((c : Thread nD τ).loc main_arg2)) :=
  pre_v34 (W0 m ρ c)
theorem W5_v12 (c : Dev nD) : W5 m ρ c (Proc.devRef .tc main_v12) = degNorm (m ((c : Thread nD τ).loc main_arg1)) := pre_v12 (W0 m ρ c)
theorem W5_v18 (c : Dev nD) : W5 m ρ c (Proc.devRef .tc main_v18) = degNorm (m ((c : Thread nD τ).loc main_arg2)) := pre_v18 (W0 m ρ c)
theorem W6_v12 (c : Dev nD) : W6 m ρ c (Proc.devRef .tc main_v12) = degNorm (m ((c : Thread nD τ).loc main_arg1)) := (W6_of_ne m ρ c main_v12 (by decide)).trans (W5_v12 m ρ c)
theorem W6_v18 (c : Dev nD) : W6 m ρ c (Proc.devRef .tc main_v18) = degNorm (m ((c : Thread nD τ).loc main_arg2)) := (W6_of_ne m ρ c main_v18 (by decide)).trans (W5_v18 m ρ c)
theorem W8_v12 (c : Dev nD) : W8 m ρ c (Proc.devRef .tc main_v12) = degNorm (m ((c : Thread nD τ).loc main_arg1)) :=
  ((W8_of_ne m ρ c main_v12 (by decide)).trans (keep1_v12 (W6 m ρ c))).trans (W6_v12 m ρ c)
theorem W8_v18 (c : Dev nD) : W8 m ρ c (Proc.devRef .tc main_v18) = degNorm (m ((c : Thread nD τ).loc main_arg2)) :=
  ((W8_of_ne m ρ c main_v18 (by decide)).trans (keep1_v18 (W6 m ρ c))).trans (W6_v18 m ρ c)

/-- What the second launch reads: the aggregation of the first launch's output. -/
theorem W7_v51 (c : Dev nD) : W7 m ρ c (Proc.devRef .tc main_v51)
    = aggregate (degNorm (m ((c : Thread nD τ).loc main_arg1))) (degNorm (m ((c : Thread nD τ).loc main_arg2))) (W6 m ρ c (Proc.devRef .tc main_v35)) (m ((c : Thread nD τ).loc main_arg1)) (m ((c : Thread nD τ).loc main_arg2)) := by
  rw [← W6_v12 m ρ c, ← W6_v18 m ρ c, ← W6_arg1 m ρ c, ← W6_arg2 m ρ c]
  exact agg1 (W6 m ρ c)

/-- What the head launch reads: the aggregation of the second launch's output. -/
theorem W9_v68 (c : Dev nD) : W9 m ρ c (Proc.devRef .tc main_v68)
    = aggregate (degNorm (m ((c : Thread nD τ).loc main_arg1))) (degNorm (m ((c : Thread nD τ).loc main_arg2))) (W8 m ρ c (Proc.devRef .tc main_v52)) (m ((c : Thread nD τ).loc main_arg1)) (m ((c : Thread nD τ).loc main_arg2)) := by
  rw [← W8_v12 m ρ c, ← W8_v18 m ρ c, ← W8_arg1 m ρ c, ← W8_arg2 m ρ c]
  exact agg2 (W8 m ρ c)

end Cert.KernelIdeal.Glue

end
-- ==== Proof.Rows.lean ====
/-
  One node's row through the network's dense parts, as plain functions on the extended reals.

  A dense layer with a rectifier sends a row x (128 numbers) to  max(Σₖ xₖ·W(k,q) + b(q), 0)  at each lane q.
  The head sends a hidden row h to the softmax over eight classes of  Σₖ (hₖ·g)·Fw(k,j) + fb(j),  where the gate
  g = 1/(1+e^(−(Σₖ hₖ·aw(k) + ab))) is the logistic of the row's attention score; the softmax subtracts the row's
  maximum (a fold of max from −∞, and once more against −∞, as both programs spell it), exponentiates, and divides by
  the row's sum. Every function here reads ONE row, so it is the same function of a row whether the row sits in a
  5000-row block or in the whole 100000-row array.
-/
import Idealize.ShloMosaic.PureOps.Ideal.Laws
import Idealize.ShloMosaic.Lib.ValueIdx

noncomputable section

namespace Cert.Gnn

open Idealize.ShloMosaic Idealize.ShloMosaic.ValueIdx

/-- Lane `q` of a dense layer's row followed by the rectifier. The zero is kept as the f32 word both programs print. -/
def denseRow (x : Fin 128 → EReal) (w : (⟨2, ![128, 128]⟩ : Shape).Idx → EReal) (b : (⟨1, ![128]⟩ : Shape).Idx → EReal)
    (q : Fin 128) : EReal :=
  max ((∑ k : Fin 128, x k * w (ix2 k q)) + b (ix1 q)) (Ideal.ofBits .f32 0x00000000#32)

/-- The attention gate of a hidden row: the logistic of its score against the one attention column, plus the bias. -/
def gate (h : Fin 128 → EReal) (aw : (⟨2, ![128, 1]⟩ : Shape).Idx → EReal) (ab : (⟨1, ![1]⟩ : Shape).Idx → EReal) : EReal :=
  Ideal.logistic ((∑ k : Fin 128, h k * aw (ix2 k (0 : Fin 1))) + ab (ix1 (0 : Fin 1)))

/-- Class `j`'s logit of a hidden row: the gated row against the classifier's column `j`, plus its bias. -/
def logitRow (h : Fin 128 → EReal) (aw : (⟨2, ![128, 1]⟩ : Shape).Idx → EReal) (ab : (⟨1, ![1]⟩ : Shape).Idx → EReal)
    (fw : (⟨2, ![128, 8]⟩ : Shape).Idx → EReal) (fb : (⟨1, ![8]⟩ : Shape).Idx → EReal) (j : Fin 8) : EReal :=
  (∑ k : Fin 128, (h k * gate h aw ab) * fw (ix2 k j)) + fb (ix1 j)

/-- The maximum of eight logits as both programs take it: the fold of max from −∞, then max with −∞ once more. -/
def rowMax (z : Fin 8 → EReal) : EReal :=
  max (Ideal.ofBits .f32 0xFF800000#32) ((Finset.univ : Finset (Fin 8)).fold max (Ideal.ofBits .f32 0xFF800000#32) z)

/-- The softmax of eight logits at class `j`. -/
def softmaxRow (z : Fin 8 → EReal) (j : Fin 8) : EReal :=
  Ideal.div (Ideal.exp (z j - rowMax z)) (∑ j' : Fin 8, Ideal.exp (z j' - rowMax z))

/-- The head on a hidden row: gate, classify, softmax. -/
def headRow (h : Fin 128 → EReal) (aw : (⟨2, ![128, 1]⟩ : Shape).Idx → EReal) (ab : (⟨1, ![1]⟩ : Shape).Idx → EReal)
    (fw : (⟨2, ![128, 8]⟩ : Shape).Idx → EReal) (fb : (⟨1, ![8]⟩ : Shape).Idx → EReal) (j : Fin 8) : EReal :=
  softmaxRow (logitRow h aw ab fw fb) j

end Cert.Gnn

end
-- ==== Proof.LibPlainDot.lean ====
/-
  A plain two-dimensional matrix product read at one entry.

  For the dimension numbers "contract the left operand's second axis with the right operand's first" (an M × K matrix
  times a K × N matrix), entry (p, q) of the product at the exact values is the sum over k of L(p, k) · R(k, q): the
  kernel's product into a zero accumulator and the host's product are this same sum.
-/
import Idealize.ShloMosaic.PureOps.Ideal.Laws
import Idealize.ShloMosaic.Lib.ValueIdx

noncomputable section

namespace Idealize.ShloMosaic.ValueIdx

/-- The contraction sum of an M × K by K × N product at output entry (p, q), re-indexed by the contracted coordinate. -/
theorem plain_contr_sum {M K N : ℕ} (L : (⟨2, ![M, K]⟩ : Shape).Idx → EReal) (R : (⟨2, ![K, N]⟩ : Shape).Idx → EReal)
    (p : Fin M) (q : Fin N) :
    ∑ k : (DotDims.plain M K N).contr.Idx,
        L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's matrix product into the zero accumulator, for any dimension record that is the plain one. -/
theorem matmul_plain_zero_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

/-- The host's matrix product, for any dimension record that is the plain one. -/
theorem dotGeneral_plain_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    Host.dotGeneral D prec L R (ix2 p q) = ∑ k : Fin K, L (ix2 p k) * R (ix2 k q) := by
  subst hD
  simp only [Host.dotGeneral]
  exact (Ideal.dotGeneral_apply (DotDims.plain M K N) prec _ L R (ix2 p q)).trans (plain_contr_sum L R p q)

end Idealize.ShloMosaic.ValueIdx

end
-- ==== Proof.LibPlainMatmul.lean ====
/-
  A plain M × K by K × N kernel matrix product into the zero accumulator, read at one entry, for operands of any float
  formats (a kernel rounds its operands to bf16 on the way in; at the exact values a change of format is the identity):
  entry (p, q) is the sum over k of L(p, k) · R(k, q).
-/
import proofs.«149673_j85057532330070_1_alg».proof.Proof.LibPlainDot

noncomputable section

namespace Idealize.ShloMosaic.ValueIdx

/-- A kernel's matrix product into the zero accumulator, operands of any formats, for any dimension record that is the
    plain one. -/
theorem matmul_plain_zero_apply_fmt {M K N : ℕ} {φ₁ φ₂ : FTy} (D : DotDims ⟨2, ![M, K]⟩ ⟨2, ![K, N]⟩ ⟨2, ![M, N]⟩)
    (hD : D = DotDims.plain M K N) (prec : Option ContractPrecision)
    (L : FVec Ideal ⟨2, ![M, K]⟩ φ₁) (R : FVec Ideal ⟨2, ![K, N]⟩ φ₂) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

end Idealize.ShloMosaic.ValueIdx

end
-- ==== Proof.LibKeepdims.lean ====
/-
  Two layout readings for row statistics kept as a column (the `keepdims=True` forms): a length-a vector viewed as an
  [a, 1] column, and an [a, 1] column repeated along its unit axis to [a, b]. Both read one element of the operand.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.LibRowReduce.lean ====
/-
  Reductions along the lanes of a matrix, read at one row, at the exact values.

  A kernel's `vector.multi_reduction` over axis 1 of an [n, m] vector and the host's one-operand `stablehlo.reduce` over
  axis 1 of an [n, m] tensor each give, at row r, a quantity of that row's m entries alone: their sum (an `add` body) or
  the fold of max from the initial value (a `maximum` body). Also: an [a, 1] column cast to a length-a vector reads the
  column's entry, and a one-element vector's extracted scalar is its entry.
-/
import Idealize.ShloMosaic.PureOps.Ideal.Laws
import Idealize.ShloMosaic.Lib.Pipeline.Value
import Idealize.ShloMosaic.Lib.ValueIdx

noncomputable section

namespace Idealize.ShloMosaic.ValueIdx

variable {φ : FTy}

/-- Row r's index with the lane coordinate k put back is (r, k). -/
theorem lift_row {n m : ℕ} (h : Shape.Reduces ⟨2, ![n, m]⟩ [(1 : Fin 2)] ⟨1, ![n]⟩) (r : Fin n) (k : Fin m) :
    h.lift (ix1 r) k = ix2 r k :=
  funext fun c => Fin.ext (by
    match c with
    | ⟨0, _⟩ => rfl
    | ⟨1, _⟩ => rfl)

/-- A kernel's lane sum at row r is the sum of the row's entries. -/
theorem multiReduction_add_row {n m : ℕ} (src : FVec Ideal ⟨2, ![n, m]⟩ φ) (acc : BitVec φ.bits)
    (h : Shape.Reduces ⟨2, ![n, m]⟩ [(1 : Fin 2)] ⟨1, ![n]⟩) (hφ : FKind.Formats φ) (hacc : acc = FKind.add.neutral φ hφ) (r : Fin n) :
    multiReduction .add [(1 : Fin 2)] ⟨1, ![n]⟩ src acc h hφ hacc (ix1 r) = ∑ k : Fin m, src (ix2 r k) :=
  (Ideal.multiReduction_add_single src acc h hφ hacc (ix1 r)).trans
    (Finset.sum_congr rfl fun k _ => congrArg src (lift_row h r k))

/-- A kernel's lane maximum at row r is the fold of max, from the accumulator's value, over the row's entries. -/
theorem multiReduction_max_row {n m : ℕ} (src : FVec Ideal ⟨2, ![n, m]⟩ φ) (acc : BitVec φ.bits)
    (h : Shape.Reduces ⟨2, ![n, m]⟩ [(1 : Fin 2)] ⟨1, ![n]⟩) (hφ : FKind.Formats φ) (hacc : acc = FKind.maximumf.neutral φ hφ) (r : Fin n) :
    multiReduction .maximumf [(1 : Fin 2)] ⟨1, ![n]⟩ src acc h hφ hacc (ix1 r)
      = (Finset.univ : Finset (Fin m)).fold max (Ideal.ofBits φ acc) (fun k => src (ix2 r k)) :=
  (Ideal.multiReduction_maximumf_single src acc h hφ hacc (ix1 r)).trans
    (congrArg (fun f : Fin m → EReal => (Finset.univ : Finset (Fin m)).fold max (Ideal.ofBits φ acc) f)
      (funext fun k => congrArg src (lift_row h r k)))

/-- The host's reduce with an add body over axis 1, at row r: the initial value plus the sum of the row's entries. -/
theorem hostReduceAdd_row {n m : ℕ} (x : FVec Ideal ⟨2, ![n, m]⟩ φ) (init : (⟨0, ![]⟩ : Shape).Idx → Ideal φ)
    (h' : Shape.ReducesTo ⟨2, ![n, m]⟩ [(1 : Fin 2)] ⟨1, ![n]⟩) (h : Shape.Reduces ⟨2, ![n, m]⟩ [(1 : Fin 2)] ⟨1, ![n]⟩)
    (hu : 0 < (⟨0, ![]⟩ : Shape).numel) (r : Fin n) :
    Host.reduceAdd x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_row h r k)))

/-- The host's reduce with a maximum body over axis 1, at row r: the fold of max, from the initial value, over the row's
    entries. -/
theorem hostReduce_max_row {n m : ℕ} (x : FVec Ideal ⟨2, ![n, m]⟩ φ) (init : (⟨0, ![]⟩ : Shape).Idx → Ideal φ)
    (h' : Shape.ReducesTo ⟨2, ![n, m]⟩ [(1 : Fin 2)] ⟨1, ![n]⟩) (h : Shape.Reduces ⟨2, ![n, m]⟩ [(1 : Fin 2)] ⟨1, ![n]⟩)
    (hu : 0 < (⟨0, ![]⟩ : Shape).numel) (r : Fin n) :
    Host.reduce (FloatOps.maximumf (F := Ideal) (φ := φ)) x init h' hu (ix1 r)
      = (Finset.univ : Finset (Fin m)).fold max (init ix0) (fun k => x (ix2 r k)) := by
  have e0 : Shape.Idx.first hu = ix0 := funext fun a => a.elim0
  refine (Host.reduce_eq_fold_single (FloatOps.maximumf (F := Ideal) (φ := φ)) x init h' h hu (ix1 r)).trans ?_
  rw [e0]
  exact congrArg (fun f : Fin m → EReal => (Finset.univ : Finset (Fin m)).fold max (init ix0) f)
    (funext fun k => congrArg x (lift_row h r k))

variable {α : Type}

/-- An [a, 1] column cast to a length-a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The scalar extracted at position 0 of a one-element vector is its entry. -/
theorem extractAt_one (x : (⟨1, ![1]⟩ : Shape).Idx → α) (h : ∀ a, (![0] : Fin 1 → ℕ) a < (⟨1, ![1]⟩ : Shape).size a) :
    extractAt ![0] x h = x (ix1 (0 : Fin 1)) :=
  congrArg x (funext fun a => Fin.ext (by
    match a with
    | ⟨0, _⟩ => rfl))

end Idealize.ShloMosaic.ValueIdx

end
-- ==== Proof.KernelRows.lean ====
/-
  The kernel bodies' stored values, read at one entry of a 5000-row block: each is the row function of Rows.lean applied
  to the block's row. The dense body stores  max(x·W + b, 0);  the head body computes the same hidden block, the gate
  column (a lane sum against the attention column, plus the bias, through the logistic), the gated block, the logits
  (a product with the classifier plus its bias), the exponentials of the logits less the row maximum, and stores their
  quotient by the row sum. A change of float format on the way into a matrix product is the identity at the exact values.
-/
import proofs.«149673_j85057532330070_1_alg».proof.Proof.Gen.KernelIdeal.Skeleton
import proofs.«149673_j85057532330070_1_alg».proof.Proof.Rows
import proofs.«149673_j85057532330070_1_alg».proof.Proof.LibPlainMatmul
import proofs.«149673_j85057532330070_1_alg».proof.Proof.LibKeepdims
import proofs.«149673_j85057532330070_1_alg».proof.Proof.LibRowReduce
import Idealize.ShloMosaic.Lib.ValueLayout
import Idealize.ShloMosaic.Lib.Pipeline.Value

noncomputable section

namespace Cert.KernelIdeal.Blk

open Cert.KernelIdeal Cert.KernelIdeal.Gen Idealize.ShloMosaic Idealize.ShloMosaic.ValueIdx Cert.Gnn

/-- The dense body's stored block at (r, q) is the dense row function of the input block's row r. -/
theorem dense_pay (x0 : FVec Ideal S5000x128 .f32) (w : FVec Ideal S128x128 .f32) (b : FVec Ideal S128 .f32)
    (r : Fin 5000) (q : Fin 128) :
    k0_pay1 (F := Ideal) x0 w b (ix2 r q) = denseRow (fun k => x0 (ix2 r k)) w b q := by
  unfold k0_pay1 denseRow
  dsimp only
  rw [maximumf_apply, addf_apply, shapeCast_self,
    matmul_plain_zero_apply_fmt dot_S5000x128_S128x128_S5000x128_1_0_0_1_n_n rfl none _ _ r q, broadcastTo_1b_ab_apply, shapeCast_a_1a_apply]
  rfl

/-- The second launch's dense body is the same function. -/
theorem dense_pay' (x0 : FVec Ideal S5000x128 .f32) (w : FVec Ideal S128x128 .f32) (b : FVec Ideal S128 .f32) :
    k1_pay1 (F := Ideal) x0 w b = k0_pay1 (F := Ideal) x0 w b := rfl

/-- The gate column of a hidden block. -/
def gateCol (h : FVec Ideal S5000x128 .f32) (aw : FVec Ideal S128x1 .f32) (ab : FVec Ideal S1 .f32) : FVec Ideal S5000x1 .f32 :=
  logistic (addf
    (shapeCast S5000x1
      (multiReduction .add [1] S5000
        (mulf h (broadcastTo S5000x128 (shapeCast S1x128 (shapeCast S128 aw shapeCasts_S128x1_S128) shapeCasts_S128_S1x128) broadcasts_S1x128_S5000x128))
        0x00000000#32 reduces_S5000x128_S5000 (.inl rfl) rfl)
      shapeCasts_S5000_S5000x1)
    (broadcast S5000x1 (extractAt ![0] ab inpos_S1_p0)))

/-- The hidden block with each row scaled by its gate. -/
def gatedBlk (h : FVec Ideal S5000x128 .f32) (aw : FVec Ideal S128x1 .f32) (ab : FVec Ideal S1 .f32) : FVec Ideal S5000x128 .f32 :=
  mulf h (broadcastTo S5000x128 (gateCol h aw ab) broadcasts_S5000x1_S5000x128)

/-- The block of logits. -/
def logitsBlk (g : FVec Ideal S5000x128 .f32) (fw : FVec Ideal S128x8 .f32) (fb : FVec Ideal S8 .f32) : FVec Ideal S5000x8 .f32 :=
  addf
    (matmul dot_S5000x128_S128x8_S5000x8_1_0_0_1_n_n none (truncf .bf16 g bitsLt_bf16_f32) (truncf .bf16 fw bitsLt_bf16_f32)
      (constant S5000x8 .f32 0x00000000#32))
    (broadcastTo S5000x8 (shapeCast S1x8 fb shapeCasts_S8_S1x8) broadcasts_S1x8_S5000x8)

/-- The exponentials of the logits less their row maximum. -/
def expBlk (z : FVec Ideal S5000x8 .f32) : FVec Ideal S5000x8 .f32 :=
  exp (subf z
    (broadcastTo S5000x8
      (shapeCast S5000x1
        (maximumf (broadcast S5000 (Scalar.ofBits .f32 0xFF800000#32))
          (multiReduction .maximumf [1] S5000 z 0xFF800000#32 reduces_S5000x8_S5000 (.inl rfl) rfl))
        shapeCasts_S5000_S5000x1)
      broadcasts_S5000x1_S5000x8))

/-- The head body's first stored value is these parts composed. -/
theorem pay2_parts (x0 : FVec Ideal S5000x128 .f32) (w : FVec Ideal S128x128 .f32) (b : FVec Ideal S128 .f32)
    (aw : FVec Ideal S128x1 .f32) (ab : FVec Ideal S1 .f32) (fw : FVec Ideal S128x8 .f32) (fb : FVec Ideal S8 .f32) :
    k2_pay2 (F := Ideal) x0 w b aw ab fw fb = expBlk (logitsBlk (gatedBlk (k0_pay1 (F := Ideal) x0 w b) aw ab) fw fb) := rfl

/-- The gate column at row r is the gate of the hidden block's row r. -/
theorem gateCol_apply (h : FVec Ideal S5000x128 .f32) (aw : FVec Ideal S128x1 .f32) (ab : FVec Ideal S1 .f32) (r : Fin 5000) :
    gateCol h aw ab (ix2 r (0 : Fin 1)) = gate (fun k => h (ix2 r k)) aw ab := by
  unfold gateCol gate
  show Ideal.logistic (_ + _) = _
  rw [shapeCast_a_a1_apply, broadcast_apply, extractAt_one]
  refine congrArg (fun s => Ideal.logistic (s + ab (ix1 (0 : Fin 1)))) ?_
  refine (multiReduction_add_row _ _ _ _ _ r).trans (Finset.sum_congr rfl fun k _ => ?_)
  rw [mulf_apply, broadcastTo_1b_ab_apply, shapeCast_a_1a_apply, shapeCast_a1_a_apply]

/-- A gated entry is the hidden entry times its row's gate. -/
theorem gatedBlk_apply (h : FVec Ideal S5000x128 .f32) (aw : FVec Ideal S128x1 .f32) (ab : FVec Ideal S1 .f32)
    (r : Fin 5000) (k : Fin 128) :
    gatedBlk h aw ab (ix2 r k) = h (ix2 r k) * gate (fun k' => h (ix2 r k')) aw ab := by
  unfold gatedBlk
  rw [mulf_apply, broadcastTo_a1_ab_apply, gateCol_apply]

/-- A logit of the block at (r, j) is the row's logit. -/
theorem logitsBlk_apply (h : FVec Ideal S5000x128 .f32) (aw : FVec Ideal S128x1 .f32) (ab : FVec Ideal S1 .f32)
    (fw : FVec Ideal S128x8 .f32) (fb : FVec Ideal S8 .f32) (r : Fin 5000) (j : Fin 8) :
    logitsBlk (gatedBlk h aw ab) fw fb (ix2 r j) = logitRow (fun k => h (ix2 r k)) aw ab fw fb j := by
  unfold logitsBlk logitRow
  rw [addf_apply, matmul_plain_zero_apply_fmt dot_S5000x128_S128x8_S5000x8_1_0_0_1_n_n rfl none _ _ r j, broadcastTo_1b_ab_apply, shapeCast_a_1a_apply]
  refine congrArg (· + fb (ix1 j)) (Finset.sum_congr rfl fun k _ => ?_)
  show gatedBlk h aw ab (ix2 r k) * fw (ix2 k j) = _
  rw [gatedBlk_apply]

/-- The exponentials at (r, j). -/
theorem expBlk_apply (z : FVec Ideal S5000x8 .f32) (r : Fin 5000) (j : Fin 8) :
    expBlk z (ix2 r j) = Ideal.exp (z (ix2 r j) - rowMax (fun j' => z (ix2 r j'))) := by
  unfold expBlk rowMax
  show Ideal.exp (z (ix2 r j) - _) = _
  rw [broadcastTo_a1_ab_apply, shapeCast_a_a1_apply, maximumf_apply, broadcast_apply]
  refine congrArg (fun s => Ideal.exp (z (ix2 r j) - max (Ideal.ofBits .f32 0xFF800000#32) s)) ?_
  exact multiReduction_max_row z _ _ _ _ r

/-- The head body's stored block at (r, j): the quotient of the exponential by the row's sum. -/
theorem pay1_apply (e : FVec Ideal S5000x8 .f32) (r : Fin 5000) (j : Fin 8) :
    k2_pay1 (F := Ideal) e (ix2 r j) = Ideal.div (e (ix2 r j)) (∑ j' : Fin 8, e (ix2 r j')) := by
  unfold k2_pay1
  dsimp only
  rw [divf_apply, broadcastTo_a1_ab_apply, shapeCast_a_a1_apply]
  exact congrArg (Ideal.div (e (ix2 r j))) (multiReduction_add_row e _ _ _ _ r)

/-- The head body's stored block at (r, j) is the head's row function of the hidden row, which is the dense row
    function of the input block's row r. -/
theorem head_pay (x0 : FVec Ideal S5000x128 .f32) (w : FVec Ideal S128x128 .f32) (b : FVec Ideal S128 .f32)
    (aw : FVec Ideal S128x1 .f32) (ab : FVec Ideal S1 .f32) (fw : FVec Ideal S128x8 .f32) (fb : FVec Ideal S8 .f32)
    (r : Fin 5000) (j : Fin 8) :
    k2_pay1 (F := Ideal) (k2_pay2 (F := Ideal) x0 w b aw ab fw fb) (ix2 r j)
      = headRow (fun k => denseRow (fun k' => x0 (ix2 r k')) w b k) aw ab fw fb j := by
  have hrow : (fun k => k0_pay1 (F := Ideal) x0 w b (ix2 r k)) = fun k => denseRow (fun k' => x0 (ix2 r k')) w b k :=
    funext fun k => dense_pay x0 w b r k
  have hz : ∀ j' : Fin 8, logitsBlk (gatedBlk (k0_pay1 (F := Ideal) x0 w b) aw ab) fw fb (ix2 r j')
      = logitRow (fun k => denseRow (fun k' => x0 (ix2 r k')) w b k) aw ab fw fb j' :=
    fun j' => by rw [logitsBlk_apply, hrow]
  rw [pay1_apply, pay2_parts]
  simp only [expBlk_apply, hz]
  rfl

end Cert.KernelIdeal.Blk

end
-- ==== Proof.LibBroadcastInDim.lean ====
/-
  Readings of `broadcast_in_dim` at an element. Between a vector and a matrix: a length-b vector laid as a
  [1, b] row; a [1, b] row repeated down `a` rows; a length-a vector laid as an [a, 1] column; an [a, 1] column repeated
  across `b` lanes. And a scalar repeated over any shape. Each reads one element of its operand.
-/
import Idealize.ShloMosaic.Lib.Pipeline.Value
import Idealize.ShloMosaic.Lib.ValueIdx

namespace Idealize.ShloMosaic.ValueIdx

variable {α : Type}

/-- A length-b vector laid as a [1, b] row reads, at (u, j), the vector at j. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A [1, b] row repeated down `a` rows reads, at (r, j), the row at (0, j). -/
theorem broadcastInDim_1b_ab_apply {a b : ℕ} (x : (⟨2, ![1, b]⟩ : Shape).Idx → α)
    (h : (⟨2, ![1, b]⟩ : Shape).BroadcastsInDim ⟨2, ![a, b]⟩ ![0, 1]) (r : Fin a) (j : Fin b) :
    broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ =>
    show (0 : ℕ) = if (1 : ℕ) = 1 then 0 else r.val
    rw [if_pos rfl]
  | ⟨1, _⟩ =>
    show j.val = if b = 1 then 0 else j.val
    split
    · have := j.isLt; omega
    · rfl

/-- A length-a vector laid as an [a, 1] column reads, at (r, u), the vector at r. -/
theorem broadcastInDim_a_a1_apply {a : ℕ} (x : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- An [a, 1] column repeated across `b` lanes reads, at (r, j), the column at (r, 0). -/
theorem broadcastInDim_a1_ab_apply {a b : ℕ} (x : (⟨2, ![a, 1]⟩ : Shape).Idx → α)
    (h : (⟨2, ![a, 1]⟩ : Shape).BroadcastsInDim ⟨2, ![a, b]⟩ ![0, 1]) (r : Fin a) (j : Fin b) :
    broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else j.val
    rw [if_pos rfl]

/-- A scalar repeated over any shape reads, at every index, the scalar. -/
theorem broadcastInDim_scalar_apply {t : Shape} (x : (⟨0, ![]⟩ : Shape).Idx → α)
    (h : (⟨0, ![]⟩ : Shape).BroadcastsInDim t ![]) (i : t.Idx) : broadcastInDim t ![] h x i = x ix0 :=
  broadcastInDim_apply _ h x i ix0 fun a => a.elim0

end Idealize.ShloMosaic.ValueIdx
-- ==== Proof.HostRead.lean ====
/-
  The reference's dense layer and head, read at one entry: each is the row function of Rows.lean applied to the operand's
  row. A host matrix product at (p, q) is the sum over k of L(p,k)·R(k,q); a bias laid as a row and repeated down the
  rows reads its lane; a column repeated across lanes reads its row; the reductions over the eight classes read the row.
-/
import proofs.«149673_j85057532330070_1_alg».proof.Proof.HostTerms
import proofs.«149673_j85057532330070_1_alg».proof.Proof.Rows
import proofs.«149673_j85057532330070_1_alg».proof.Proof.LibPlainDot
import proofs.«149673_j85057532330070_1_alg».proof.Proof.LibBroadcastInDim
import proofs.«149673_j85057532330070_1_alg».proof.Proof.LibRowReduce

noncomputable section

namespace Cert.Gnn

open Cert.ReferenceIdeal Cert.ReferenceIdeal.Gen Idealize.ShloMosaic Idealize.ShloMosaic.ValueIdx

/-- The f32 word 0x3F800000 is the number one. -/
theorem ofBits_f32_one : Ideal.ofBits .f32 0x3F800000#32 = 1 := by
  simp [Ideal.ofBits, Ideal.ieee, -EReal.coe_mul]; norm_num

/-- The dense layer at (p, q) is the row function of row p. -/
theorem denseLayer_apply (a : FVec Ideal S100000x128 .f32) (w : FVec Ideal S128x128 .f32) (b : FVec Ideal S128 .f32)
    (p : Fin 100000) (q : Fin 128) :
    denseLayer a w b (ix2 p q) = denseRow (fun k => a (ix2 p k)) w b q := by
  unfold denseLayer denseRow
  rw [maximumf_apply, addf_apply, dotGeneral_plain_apply dot_S100000x128_S128x128_S100000x128_1_0_0_1_n_n rfl none a w p q, broadcastInDim_1b_ab_apply,
    broadcastInDim_b_1b_apply, broadcastInDim_scalar_apply]
  rfl

/-- A gated entry is the hidden entry times its row's gate. -/
theorem gated_apply (h : FVec Ideal S100000x128 .f32) (aw : FVec Ideal S128x1 .f32) (ab : FVec Ideal S1 .f32)
    (p : Fin 100000) (k : Fin 128) :
    gated h aw ab (ix2 p k) = h (ix2 p k) * gate (fun k' => h (ix2 p k')) aw ab := by
  unfold gated gate
  rw [mulf_apply, broadcastInDim_a1_ab_apply]
  refine congrArg (h (ix2 p k) * ·) ?_
  unfold Host.divf Host.exp Host.negf
  simp only [addf_apply]
  rw [broadcastInDim_scalar_apply, dotGeneral_plain_apply dot_S100000x128_S128x1_S100000x1_1_0_0_1_n_n rfl none h aw p (0 : Fin 1), broadcastInDim_1b_ab_apply,
    broadcastInDim_b_1b_apply]
  show Ideal.div (Ideal.ofBits .f32 0x3F800000#32) (Ideal.ofBits .f32 0x3F800000#32 + Ideal.exp (-(_ + _))) = _
  rw [ofBits_f32_one]
  rfl

/-- A logit at (p, j) is the row's logit. -/
theorem logits_gated_apply (h : FVec Ideal S100000x128 .f32) (aw : FVec Ideal S128x1 .f32) (ab : FVec Ideal S1 .f32)
    (fw : FVec Ideal S128x8 .f32) (fb : FVec Ideal S8 .f32) (p : Fin 100000) (j : Fin 8) :
    logits (gated h aw ab) fw fb (ix2 p j) = logitRow (fun k => h (ix2 p k)) aw ab fw fb j := by
  unfold logits logitRow
  rw [addf_apply, dotGeneral_plain_apply dot_S100000x128_S128x8_S100000x8_1_0_0_1_n_n rfl none (gated h aw ab) fw p j, broadcastInDim_1b_ab_apply,
    broadcastInDim_b_1b_apply]
  refine congrArg (· + fb (ix1 j)) (Finset.sum_congr rfl fun k _ => ?_)
  rw [gated_apply]

/-- The softmax at (p, j) is the row softmax of row p's logits. -/
theorem softmax_apply (z : FVec Ideal S100000x8 .f32) (p : Fin 100000) (j : Fin 8) :
    softmax z (ix2 p j) = softmaxRow (fun j' => z (ix2 p j')) j := by
  have hred : Shape.Reduces S100000x8 [(1 : Fin 2)] S100000 := by decide
  have hmax : ∀ p' : Fin 100000,
      maximumf (broadcastInDim S100000 ![] bcast_S_S100000 (constant (F := Ideal) S_ .f32 0xFF800000#32))
        (Host.reduce FloatOps.maximumf z (constant (F := Ideal) S_ .f32 0xFF800000#32) reducesTo_S100000x8_S100000_d1 h_S_) (ix1 p')
        = rowMax (fun j' => z (ix2 p' j')) := fun p' => by
    rw [maximumf_apply, broadcastInDim_scalar_apply, hostReduce_max_row z _ reducesTo_S100000x8_S100000_d1 hred h_S_ p']
    rfl
  have hexp : ∀ j' : Fin 8,
      Host.exp (subf z (broadcastInDim S100000x8 ![0, 1] bcast_S100000x1_S100000x8_0_1 (broadcastInDim S100000x1 ![0] bcast_S100000_S100000x1_0
        (maximumf (broadcastInDim S100000 ![] bcast_S_S100000 (constant (F := Ideal) S_ .f32 0xFF800000#32))
          (Host.reduce FloatOps.maximumf z (constant (F := Ideal) S_ .f32 0xFF800000#32) reducesTo_S100000x8_S100000_d1 h_S_))))) (ix2 p j')
        = Ideal.exp (z (ix2 p j') - rowMax (fun j'' => z (ix2 p j''))) := fun j' => by
    unfold Host.exp
    simp only [subf_apply]
    rw [broadcastInDim_a1_ab_apply, broadcastInDim_a_a1_apply, hmax p]
    rfl
  unfold softmax softmaxRow
  unfold Host.divf
  simp only []
  rw [hexp j, broadcastInDim_a1_ab_apply, broadcastInDim_a_a1_apply,
    hostReduceAdd_row _ _ reducesTo_S100000x8_S100000_d1 hred h_S_ p]
  show Ideal.div _ (Ideal.ofBits .f32 0x00000000#32 + _) = _
  rw [Ideal.ofBits_zero_f32, zero_add]
  exact congrArg (Ideal.div _) (Finset.sum_congr rfl fun j' _ => hexp j')

/-- The head at (p, j) is the head's row function of the hidden row p. -/
theorem head_apply (h : FVec Ideal S100000x128 .f32) (aw : FVec Ideal S128x1 .f32) (ab : FVec Ideal S1 .f32)
    (fw : FVec Ideal S128x8 .f32) (fb : FVec Ideal S8 .f32) (p : Fin 100000) (j : Fin 8) :
    softmax (logits (gated h aw ab) fw fb) (ix2 p j) = headRow (fun k => h (ix2 p k)) aw ab fw fb j := by
  rw [softmax_apply]
  unfold headRow
  exact congrArg (fun z => softmaxRow z j) (funext fun j' => logits_gated_apply h aw ab fw fb p j')

end Cert.Gnn

end
-- ==== Proof.BlockRows.lean ====
/-
  A block of rows against the whole array. If a 5000-row block holds rows 5000·t … 5000·t + 4999 of an array, the dense
  body's stored block is those rows of the whole array's dense layer, and the head body's stored block is those rows of
  the whole array's head: both are row functions, and row r of the block is row 5000·t + r of the array.
-/
import proofs.«149673_j85057532330070_1_alg».proof.Proof.KernelRows
import proofs.«149673_j85057532330070_1_alg».proof.Proof.HostRead

noncomputable section

namespace Cert.KernelIdeal.Blk

open Cert.KernelIdeal Cert.KernelIdeal.Gen Idealize.ShloMosaic Idealize.ShloMosaic.ValueIdx Cert.Gnn

theorem hz2 : (![0, 0] : Fin 2 → Nat) = fun _ => 0 := funext fun a => by fin_cases a <;> rfl
theorem hz1 : (![0] : Fin 1 → Nat) = fun _ => 0 := funext fun a => by fin_cases a <;> rfl

/-- The dense body on block `tv` of `A`, at a block entry, is the dense layer of `A` at the array entry it sits at. -/
theorem dense_block (A : FVec Ideal S100000x128 .f32) (W : FVec Ideal S128x128 .f32) (B : FVec Ideal S128 .f32)
    (x0 : FVec Ideal S5000x128 .f32) (tv : ℕ)
    (h0 : ∀ (y : S5000x128.Idx) (i : S100000x128.Idx), (i 0).val = tv * 5000 + (y 0).val → (i 1).val = (y 1).val → x0 y = A i)
    (y : S5000x128.Idx) (i : S100000x128.Idx) (hi0 : (i 0).val = tv * 5000 + (y 0).val) (hi1 : (i 1).val = (y 1).val) :
    k0_pay1 (F := Ideal) x0 W B y = denseLayer A W B i := by
  obtain ⟨r, q, rfl⟩ : ∃ (r : Fin 5000) (q : Fin 128), y = ix2 r q := ⟨y 0, y 1, eq_ix2 y⟩
  obtain ⟨p, q', rfl⟩ : ∃ (p : Fin 100000) (q' : Fin 128), i = ix2 p q' := ⟨i 0, i 1, eq_ix2 i⟩
  obtain rfl : q' = q := Fin.ext hi1
  rw [dense_pay, denseLayer_apply]
  exact congrArg (fun x => denseRow x W B q') (funext fun k => h0 (ix2 r k) (ix2 p k) hi0 rfl)

/-- The head body on block `tv` of `A`, at a block entry, is the head of `A`'s dense layer at the array entry. -/
theorem head_block (A : FVec Ideal S100000x128 .f32) (W : FVec Ideal S128x128 .f32) (B : FVec Ideal S128 .f32)
    (AW : FVec Ideal S128x1 .f32) (AB : FVec Ideal S1 .f32) (FW : FVec Ideal S128x8 .f32) (FB : FVec Ideal S8 .f32)
    (x0 : FVec Ideal S5000x128 .f32) (tv : ℕ)
    (h0 : ∀ (y : S5000x128.Idx) (i : S100000x128.Idx), (i 0).val = tv * 5000 + (y 0).val → (i 1).val = (y 1).val → x0 y = A i)
    (y : S5000x8.Idx) (i : S100000x8.Idx) (hi0 : (i 0).val = tv * 5000 + (y 0).val) (hi1 : (i 1).val = (y 1).val) :
    k2_pay1 (F := Ideal) (k2_pay2 (F := Ideal) x0 W B AW AB FW FB) y
      = softmax (logits (gated (denseLayer A W B) AW AB) FW FB) i := by
  obtain ⟨r, j, rfl⟩ : ∃ (r : Fin 5000) (j : Fin 8), y = ix2 r j := ⟨y 0, y 1, eq_ix2 y⟩
  obtain ⟨p, j', rfl⟩ : ∃ (p : Fin 100000) (j' : Fin 8), i = ix2 p j' := ⟨i 0, i 1, eq_ix2 i⟩
  obtain rfl : j' = j := Fin.ext hi1
  rw [head_pay, head_apply]
  refine congrArg (fun hrow => headRow hrow AW AB FW FB j') (funext fun k => ?_)
  rw [denseLayer_apply]
  exact congrArg (fun x => denseRow x W B k) (funext fun k' => h0 (ix2 r k') (ix2 p k') hi0 rfl)

end Cert.KernelIdeal.Blk

end
-- ==== Proof.Region0.lean ====
/-
  Launch 1 (a dense layer over twenty 5000-row blocks): its output array ends holding the dense layer of its input array.
  Point t fetches rows 5000·t … 5000·t + 4999 of the input and the whole weight and bias, and writes back the same rows
  of the output; the twenty written blocks tile the output array.
-/
import proofs.«149673_j85057532330070_1_alg».proof.Proof.Gen.KernelIdeal.Frame
import proofs.«149673_j85057532330070_1_alg».proof.Proof.BlockRows
import Idealize.ShloMosaic.Lib.Pipeline.Value

set_option maxRecDepth 16384

noncomputable section

namespace Cert.KernelIdeal.Reg0

open Cert.KernelIdeal Cert.KernelIdeal.Gen Cert.KernelIdeal.Blk
open Idealize.ShloMosaic Idealize.ShloMosaic.TcCoe Idealize.SL.Sem Idealize.ShloMosaic.ValueIdx
open Idealize.ShloMosaic.Pipeline (Dat)
open Cert.Gnn

variable (V : (c : Dev nD) → (b : Ref sig .tc) → Buf (Elt Ideal) ((c : Thread nD τ).loc b))

/-- The index maps at point t: the row-blocked windows are at block row t, the weight and the bias at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- The input window's block at point t is rows 5000·t … of the input array. -/
theorem in_block (c : Dev nD) (t : Fin cfg0.N) (y : S5000x128.Idx) (i : S100000x128.Idx)
    (hi0 : (i 0).val = t.val * 5000 + (y 0).val) (hi1 : (i 1).val = (y 1).val) :
    (iblk0 V c 0 t : FVec Ideal S5000x128 .f32) y = (V c main_v34 : S100000x128.Idx → EReal) i := by
  obtain ⟨e0, e1, -⟩ := idx_facts t
  unfold iblk0
  rw [View.read_apply]
  show V c main_v34 _ = V c main_v34 i
  refine congrArg (V c main_v34) (funext fun a => Fin.ext ?_)
  match a with
  | ⟨0, _⟩ => show win0_0.index t 0 * 5000 + 1 * (y 0).val = (i 0).val; rw [e0, hi0]; omega
  | ⟨1, _⟩ => show win0_0.index t 1 * 128 + 1 * (y 1).val = (i 1).val; rw [e1, hi1]; omega

/-- The weight window's one block is the whole weight. -/
theorem w_block (c : Dev nD) (t : Fin cfg0.N) : (iblk0 V c 1 t : FVec Ideal S128x128 .f32) = V c main_arg3 := by
  obtain ⟨-, -, e0, e1, -⟩ := idx_facts t
  funext y
  unfold iblk0
  rw [View.read_apply]
  show V c main_arg3 _ = V c main_arg3 y
  refine congrArg (V c main_arg3) (funext fun a => Fin.ext ?_)
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- The bias window's one block is the whole bias. -/
theorem b_block (c : Dev nD) (t : Fin cfg0.N) : (iblk0 V c 2 t : FVec Ideal S128 .f32) = V c main_arg4 := by
  obtain ⟨-, -, -, -, e0, -⟩ := idx_facts t
  funext y
  unfold iblk0
  rw [View.read_apply]
  show V c main_arg4 _ = V c main_arg4 y
  refine congrArg (V c main_arg4) (funext fun a => Fin.ext ?_)
  match a with
  | ⟨0, _⟩ => show win0_2.index t 0 * 128 + 1 * (y 0).val = (y 0).val; rw [e0]; omega

/-- What point t writes back is block t of the dense layer of the input array. -/
theorem flushed_eq (c : Dev nD) (t : Fin cfg0.N) :
    (dat0 V c).flushed 3 t
      = ((cfg0.win 3).blk t).view.read (Elt Ideal) (denseLayer (F := Ideal) (V c main_v34) (V c main_arg3) (V c main_arg4)) := by
  obtain ⟨-, -, -, -, -, e0, e1⟩ := idx_facts t
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S128) hz1]
  rw [w_block V c t, b_block V c t]
  funext y
  show k0_pay1 (F := Ideal) (iblk0 V c 0 t) (V c main_arg3) (V c main_arg4) y
    = denseLayer (F := Ideal) (V c main_v34) (V c main_arg3) (V c main_arg4) (((cfg0.win 3).blk t).view.emb y)
  refine dense_block (V c main_v34) (V c main_arg3) (V c main_arg4) (iblk0 V c 0 t) t.val
    (fun y' i h0 h1 => in_block V c t y' i h0 h1) y _ ?_ ?_
  · show win0_3.index t 0 * 5000 + 1 * (y 0).val = t.val * 5000 + (y 0).val; rw [e0]; omega
  · show win0_3.index t 1 * 128 + 1 * (y 1).val = (y 1).val; rw [e1]; omega

/-- An index of the output array is in point t's block iff each coordinate is in the block's range. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v35).slice (win0_3.rect t)).set ↔ _
  rw [View.set_slice_whole, Rect.mem_set_unit]
  exact Iff.rfl

/-- Row i₀ of the output array is written back by point i₀ / 5000. -/
theorem cover (i : S100000x128.Idx) :
    ∃ t : Fin cfg0.N, (cfg0.win 3).flush t = true ∧ i ∈ ((cfg0.win 3).blk t).view.set := by
  have h0 : (i 0).val < 100000 := (i 0).isLt
  have h1 : (i 1).val < 128 := (i 1).isLt
  have hN : cfg0.N = 20 := N_0
  have ht : (i 0).val / 5000 < cfg0.N := by rw [hN]; omega
  obtain ⟨-, -, -, -, -, e0, e1⟩ := idx_facts (⟨(i 0).val / 5000, ht⟩ : Fin cfg0.N)
  refine ⟨⟨(i 0).val / 5000, ht⟩, flush0_3 _, ?_⟩
  rw [mem_blk]
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ 1 * 128 ≤ (i 1).val ∧ (i 1).val < win0_3.index ⟨(i 0).val / 5000, ht⟩ 1 * 128 + 128
    rw [e1]; omega

/-- The output array after the launch is the dense layer of the input array. -/
theorem final (c : Dev nD) :
    (dat0 V c).arrAt 3 cfg0.N = denseLayer (F := Ideal) (V c main_v34) (V c main_arg3) (V c main_arg4) :=
  (dat0 V c).arrAt_eq_of_cover 3 (denseLayer (F := Ideal) (V c main_v34) (V c main_arg3) (V c main_arg4)) (fun t _ => flushed_eq V c t) cover

end Cert.KernelIdeal.Reg0

end
-- ==== Proof.Region1.lean ====
/-
  Launch 2 (a dense layer over twenty 5000-row blocks): its output array ends holding the dense layer of its input array.
  Point t fetches rows 5000·t … 5000·t + 4999 of the input and the whole weight and bias, and writes back the same rows
  of the output; the twenty written blocks tile the output array.
-/
import proofs.«149673_j85057532330070_1_alg».proof.Proof.Gen.KernelIdeal.Frame
import proofs.«149673_j85057532330070_1_alg».proof.Proof.BlockRows
import Idealize.ShloMosaic.Lib.Pipeline.Value

set_option maxRecDepth 16384

noncomputable section

namespace Cert.KernelIdeal.Reg1

open Cert.KernelIdeal Cert.KernelIdeal.Gen Cert.KernelIdeal.Blk
open Idealize.ShloMosaic Idealize.ShloMosaic.TcCoe Idealize.SL.Sem Idealize.ShloMosaic.ValueIdx
open Idealize.ShloMosaic.Pipeline (Dat)
open Cert.Gnn

variable (V : (c : Dev nD) → (b : Ref sig .tc) → Buf (Elt Ideal) ((c : Thread nD τ).loc b))

/-- The index maps at point t: the row-blocked windows are at block row t, the weight and the bias at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- The input window's block at point t is rows 5000·t … of the input array. -/
theorem in_block (c : Dev nD) (t : Fin cfg1.N) (y : S5000x128.Idx) (i : S100000x128.Idx)
    (hi0 : (i 0).val = t.val * 5000 + (y 0).val) (hi1 : (i 1).val = (y 1).val) :
    (iblk1 V c 0 t : FVec Ideal S5000x128 .f32) y = (V c main_v51 : S100000x128.Idx → EReal) i := by
  obtain ⟨e0, e1, -⟩ := idx_facts t
  unfold iblk1
  rw [View.read_apply]
  show V c main_v51 _ = V c main_v51 i
  refine congrArg (V c main_v51) (funext fun a => Fin.ext ?_)
  match a with
  | ⟨0, _⟩ => show win1_0.index t 0 * 5000 + 1 * (y 0).val = (i 0).val; rw [e0, hi0]; omega
  | ⟨1, _⟩ => show win1_0.index t 1 * 128 + 1 * (y 1).val = (i 1).val; rw [e1, hi1]; omega

/-- The weight window's one block is the whole weight. -/
theorem w_block (c : Dev nD) (t : Fin cfg1.N) : (iblk1 V c 1 t : FVec Ideal S128x128 .f32) = V c main_arg5 := by
  obtain ⟨-, -, e0, e1, -⟩ := idx_facts t
  funext y
  unfold iblk1
  rw [View.read_apply]
  show V c main_arg5 _ = V c main_arg5 y
  refine congrArg (V c main_arg5) (funext fun a => Fin.ext ?_)
  match a with
  | ⟨0, _⟩ => show win1_1.index t 0 * 128 + 1 * (y 0).val = (y 0).val; rw [e0]; omega
  | ⟨1, _⟩ => show win1_1.index t 1 * 128 + 1 * (y 1).val = (y 1).val; rw [e1]; omega

/-- The bias window's one block is the whole bias. -/
theorem b_block (c : Dev nD) (t : Fin cfg1.N) : (iblk1 V c 2 t : FVec Ideal S128 .f32) = V c main_arg6 := by
  obtain ⟨-, -, -, -, e0, -⟩ := idx_facts t
  funext y
  unfold iblk1
  rw [View.read_apply]
  show V c main_arg6 _ = V c main_arg6 y
  refine congrArg (V c main_arg6) (funext fun a => Fin.ext ?_)
  match a with
  | ⟨0, _⟩ => show win1_2.index t 0 * 128 + 1 * (y 0).val = (y 0).val; rw [e0]; omega

/-- What point t writes back is block t of the dense layer of the input array. -/
theorem flushed_eq (c : Dev nD) (t : Fin cfg1.N) :
    (dat1 V c).flushed 3 t
      = ((cfg1.win 3).blk t).view.read (Elt Ideal) (denseLayer (F := Ideal) (V c main_v51) (V c main_arg5) (V c main_arg6)) := by
  obtain ⟨-, -, -, -, -, e0, e1⟩ := idx_facts t
  show (cfg1.win 3).cut (grid1.coords t) ((dat1 V c).after 3 t) = _
  rw [after1_3]
  unfold out1_3
  rw [View.canon_unit_zero hz2]
  simp only [View.ld_unit_zero (S := S5000x128) hz2, View.ld_unit_zero (S := S128x128) hz2, View.ld_unit_zero (S := S128) hz1]
  rw [w_block V c t, b_block V c t]
  funext y
  show k0_pay1 (F := Ideal) (iblk1 V c 0 t) (V c main_arg5) (V c main_arg6) y
    = denseLayer (F := Ideal) (V c main_v51) (V c main_arg5) (V c main_arg6) (((cfg1.win 3).blk t).view.emb y)
  refine dense_block (V c main_v51) (V c main_arg5) (V c main_arg6) (iblk1 V c 0 t) t.val
    (fun y' i h0 h1 => in_block V c t y' i h0 h1) y _ ?_ ?_
  · show win1_3.index t 0 * 5000 + 1 * (y 0).val = t.val * 5000 + (y 0).val; rw [e0]; omega
  · show win1_3.index t 1 * 128 + 1 * (y 1).val = (y 1).val; rw [e1]; omega

/-- An index of the output array is in point t's block iff each coordinate is in the block's range. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v52).slice (win1_3.rect t)).set ↔ _
  rw [View.set_slice_whole, Rect.mem_set_unit]
  exact Iff.rfl

/-- Row i₀ of the output array is written back by point i₀ / 5000. -/
theorem cover (i : S100000x128.Idx) :
    ∃ t : Fin cfg1.N, (cfg1.win 3).flush t = true ∧ i ∈ ((cfg1.win 3).blk t).view.set := by
  have h0 : (i 0).val < 100000 := (i 0).isLt
  have h1 : (i 1).val < 128 := (i 1).isLt
  have hN : cfg1.N = 20 := N_1
  have ht : (i 0).val / 5000 < cfg1.N := by rw [hN]; omega
  obtain ⟨-, -, -, -, -, e0, e1⟩ := idx_facts (⟨(i 0).val / 5000, ht⟩ : Fin cfg1.N)
  refine ⟨⟨(i 0).val / 5000, ht⟩, flush1_3 _, ?_⟩
  rw [mem_blk]
  intro a
  match a with
  | ⟨0, _⟩ =>
    show win1_3.index ⟨(i 0).val / 5000, ht⟩ 0 * 5000 ≤ (i 0).val ∧ (i 0).val < win1_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ 1 * 128 ≤ (i 1).val ∧ (i 1).val < win1_3.index ⟨(i 0).val / 5000, ht⟩ 1 * 128 + 128
    rw [e1]; omega

/-- The output array after the launch is the dense layer of the input array. -/
theorem final (c : Dev nD) :
    (dat1 V c).arrAt 3 cfg1.N = denseLayer (F := Ideal) (V c main_v51) (V c main_arg5) (V c main_arg6) :=
  (dat1 V c).arrAt_eq_of_cover 3 (denseLayer (F := Ideal) (V c main_v51) (V c main_arg5) (V c main_arg6)) (fun t _ => flushed_eq V c t) cover

end Cert.KernelIdeal.Reg1

end
-- ==== Proof.Region2.lean ====
/-
  The head launch (twenty 5000-row blocks): its output array ends holding the head — gate, classifier, softmax — of the
  third dense layer of its input array. Point t fetches rows 5000·t … 5000·t + 4999 of the input and the six whole
  parameter arrays, and writes back the same rows of the 100000 × 8 output; the twenty written blocks tile it.
-/
import proofs.«149673_j85057532330070_1_alg».proof.Proof.Gen.KernelIdeal.Frame
import proofs.«149673_j85057532330070_1_alg».proof.Proof.BlockRows
import Idealize.ShloMosaic.Lib.Pipeline.Value

set_option maxRecDepth 16384

noncomputable section

namespace Cert.KernelIdeal.Reg2

open Cert.KernelIdeal Cert.KernelIdeal.Gen Cert.KernelIdeal.Blk
open Idealize.ShloMosaic Idealize.ShloMosaic.TcCoe Idealize.SL.Sem Idealize.ShloMosaic.ValueIdx
open Idealize.ShloMosaic.Pipeline (Dat)
open Cert.Gnn

variable (V : (c : Dev nD) → (b : Ref sig .tc) → Buf (Elt Ideal) ((c : Thread nD τ).loc b))

/-- The index maps at point t: the row-blocked windows are at block row t, the parameters at their one block. -/
theorem idx_facts : ∀ t : Fin cfg2.N, (win2_0.index t (0 : Fin 2) = t.val ∧ win2_0.index t (1 : Fin 2) = 0)
    ∧ (win2_1.index t (0 : Fin 2) = 0 ∧ win2_1.index t (1 : Fin 2) = 0) ∧ win2_2.index t (0 : Fin 1) = 0
    ∧ (win2_3.index t (0 : Fin 2) = 0 ∧ win2_3.index t (1 : Fin 2) = 0) ∧ win2_4.index t (0 : Fin 1) = 0
    ∧ (win2_5.index t (0 : Fin 2) = 0 ∧ win2_5.index t (1 : Fin 2) = 0) ∧ win2_6.index t (0 : Fin 1) = 0
    ∧ (win2_7.index t (0 : Fin 2) = t.val ∧ win2_7.index t (1 : Fin 2) = 0) :=
  (by decide +kernel : ∀ t : Fin grid2.N, _)

/-- The input window's block at point t is rows 5000·t … of the input array. -/
theorem in_block (c : Dev nD) (t : Fin cfg2.N) (y : S5000x128.Idx) (i : S100000x128.Idx)
    (hi0 : (i 0).val = t.val * 5000 + (y 0).val) (hi1 : (i 1).val = (y 1).val) :
    (iblk2 V c 0 t : FVec Ideal S5000x128 .f32) y = (V c main_v68 : S100000x128.Idx → EReal) i := by
  obtain ⟨⟨e0, e1⟩, -⟩ := idx_facts t
  unfold iblk2
  rw [View.read_apply]
  show V c main_v68 _ = V c main_v68 i
  refine congrArg (V c main_v68) (funext fun a => Fin.ext ?_)
  match a with
  | ⟨0, _⟩ => show win2_0.index t 0 * 5000 + 1 * (y 0).val = (i 0).val; rw [e0, hi0]; omega
  | ⟨1, _⟩ => show win2_0.index t 1 * 128 + 1 * (y 1).val = (i 1).val; rw [e1, hi1]; omega

/-- The third weight's one block is the whole weight. -/
theorem w_block (c : Dev nD) (t : Fin cfg2.N) : (iblk2 V c 1 t : FVec Ideal S128x128 .f32) = V c main_arg7 := by
  obtain ⟨-, ⟨e0, e1⟩, -⟩ := idx_facts t
  funext y
  unfold iblk2
  rw [View.read_apply]
  show V c main_arg7 _ = V c main_arg7 y
  refine congrArg (V c main_arg7) (funext fun a => Fin.ext ?_)
  match a with
  | ⟨0, _⟩ => show win2_1.index t 0 * 128 + 1 * (y 0).val = (y 0).val; rw [e0]; omega
  | ⟨1, _⟩ => show win2_1.index t 1 * 128 + 1 * (y 1).val = (y 1).val; rw [e1]; omega

/-- The third bias's one block is the whole bias. -/
theorem b_block (c : Dev nD) (t : Fin cfg2.N) : (iblk2 V c 2 t : FVec Ideal S128 .f32) = V c main_arg8 := by
  obtain ⟨-, -, e0, -⟩ := idx_facts t
  funext y
  unfold iblk2
  rw [View.read_apply]
  show V c main_arg8 _ = V c main_arg8 y
  refine congrArg (V c main_arg8) (funext fun a => Fin.ext ?_)
  match a with
  | ⟨0, _⟩ => show win2_2.index t 0 * 128 + 1 * (y 0).val = (y 0).val; rw [e0]; omega

/-- The attention column's one block is the whole column. -/
theorem aw_block (c : Dev nD) (t : Fin cfg2.N) : (iblk2 V c 3 t : FVec Ideal S128x1 .f32) = V c main_arg9 := by
  obtain ⟨-, -, -, ⟨e0, e1⟩, -⟩ := idx_facts t
  funext y
  unfold iblk2
  rw [View.read_apply]
  show V c main_arg9 _ = V c main_arg9 y
  refine congrArg (V c main_arg9) (funext fun a => Fin.ext ?_)
  match a with
  | ⟨0, _⟩ => show win2_3.index t 0 * 128 + 1 * (y 0).val = (y 0).val; rw [e0]; omega
  | ⟨1, _⟩ => show win2_3.index t 1 * 1 + 1 * (y 1).val = (y 1).val; rw [e1]; omega

/-- The attention bias's one block is the whole one-element array. -/
theorem ab_block (c : Dev nD) (t : Fin cfg2.N) : (iblk2 V c 4 t : FVec Ideal S1 .f32) = V c main_arg10 := by
  obtain ⟨-, -, -, -, e0, -⟩ := idx_facts t
  funext y
  unfold iblk2
  rw [View.read_apply]
  show V c main_arg10 _ = V c main_arg10 y
  refine congrArg (V c main_arg10) (funext fun a => Fin.ext ?_)
  match a with
  | ⟨0, _⟩ => show win2_4.index t 0 * 1 + 1 * (y 0).val = (y 0).val; rw [e0]; omega

/-- The classifier's one block is the whole classifier. -/
theorem fw_block (c : Dev nD) (t : Fin cfg2.N) : (iblk2 V c 5 t : FVec Ideal S128x8 .f32) = V c main_arg11 := by
  obtain ⟨-, -, -, -, -, ⟨e0, e1⟩, -⟩ := idx_facts t
  funext y
  unfold iblk2
  rw [View.read_apply]
  show V c main_arg11 _ = V c main_arg11 y
  refine congrArg (V c main_arg11) (funext fun a => Fin.ext ?_)
  match a with
  | ⟨0, _⟩ => show win2_5.index t 0 * 128 + 1 * (y 0).val = (y 0).val; rw [e0]; omega
  | ⟨1, _⟩ => show win2_5.index t 1 * 8 + 1 * (y 1).val = (y 1).val; rw [e1]; omega

/-- The classifier bias's one block is the whole bias. -/
theorem fb_block (c : Dev nD) (t : Fin cfg2.N) : (iblk2 V c 6 t : FVec Ideal S8 .f32) = V c main_arg12 := by
  obtain ⟨-, -, -, -, -, -, e0, -⟩ := idx_facts t
  funext y
  unfold iblk2
  rw [View.read_apply]
  show V c main_arg12 _ = V c main_arg12 y
  refine congrArg (V c main_arg12) (funext fun a => Fin.ext ?_)
  match a with
  | ⟨0, _⟩ => show win2_6.index t 0 * 8 + 1 * (y 0).val = (y 0).val; rw [e0]; omega

/-- The head of the third dense layer of the input array, on the arrays as the launch finds them. -/
abbrev result (c : Dev nD) : FVec Ideal S100000x8 .f32 :=
  softmax (logits (gated (denseLayer (F := Ideal) (V c main_v68) (V c main_arg7) (V c main_arg8)) (V c main_arg9) (V c main_arg10))
    (V c main_arg11) (V c main_arg12))

/-- What point t writes back is block t of that result. -/
theorem flushed_eq (c : Dev nD) (t : Fin cfg2.N) :
    (dat2 V c).flushed 7 t = ((cfg2.win 7).blk t).view.read (Elt Ideal) (result V c) := by
  obtain ⟨-, -, -, -, -, -, -, e0, e1⟩ := idx_facts t
  show (cfg2.win 7).cut (grid2.coords t) ((dat2 V c).after 7 t) = _
  rw [after2_7]
  unfold out2_7
  rw [View.canon_unit_zero hz2]
  simp only [View.ld_unit_zero (S := S5000x128) hz2, View.ld_unit_zero (S := S128x128) hz2, View.ld_unit_zero (S := S128) hz1,
    View.ld_unit_zero (S := S128x1) hz2, View.ld_unit_zero (S := S1) hz1, View.ld_unit_zero (S := S128x8) hz2,
    View.ld_unit_zero (S := S8) hz1]
  rw [w_block V c t, b_block V c t, aw_block V c t, ab_block V c t, fw_block V c t, fb_block V c t]
  funext y
  show k2_pay1 (F := Ideal) (k2_pay2 (F := Ideal) (iblk2 V c 0 t) (V c main_arg7) (V c main_arg8) (V c main_arg9) (V c main_arg10)
      (V c main_arg11) (V c main_arg12)) y = result V c (((cfg2.win 7).blk t).view.emb y)
  refine head_block (V c main_v68) (V c main_arg7) (V c main_arg8) (V c main_arg9) (V c main_arg10) (V c main_arg11) (V c main_arg12)
    (iblk2 V c 0 t) t.val (fun y' i h0 h1 => in_block V c t y' i h0 h1) y _ ?_ ?_
  · show win2_7.index t 0 * 5000 + 1 * (y 0).val = t.val * 5000 + (y 0).val; rw [e0]; omega
  · show win2_7.index t 1 * 8 + 1 * (y 1).val = (y 1).val; rw [e1]; omega

/-- An index of the output array is in point t's block iff each coordinate is in the block's range. -/
theorem mem_blk (t : Fin cfg2.N) (i : S100000x8.Idx) :
    i ∈ ((cfg2.win 7).blk t).view.set ↔ ∀ a : Fin 2, win2_7.index t a * S5000x8.size a ≤ (i a).val
      ∧ (i a).val < win2_7.index t a * S5000x8.size a + S5000x8.size a := by
  show i ∈ ((View.whole main_v69).slice (win2_7.rect t)).set ↔ _
  rw [View.set_slice_whole, Rect.mem_set_unit]
  exact Iff.rfl

/-- Row i₀ of the output array is written back by point i₀ / 5000. -/
theorem cover (i : S100000x8.Idx) :
    ∃ t : Fin cfg2.N, (cfg2.win 7).flush t = true ∧ i ∈ ((cfg2.win 7).blk t).view.set := by
  have h0 : (i 0).val < 100000 := (i 0).isLt
  have h1 : (i 1).val < 8 := (i 1).isLt
  have hN : cfg2.N = 20 := N_2
  have ht : (i 0).val / 5000 < cfg2.N := by rw [hN]; omega
  obtain ⟨-, -, -, -, -, -, -, e0, e1⟩ := idx_facts (⟨(i 0).val / 5000, ht⟩ : Fin cfg2.N)
  refine ⟨⟨(i 0).val / 5000, ht⟩, flush2_7 _, ?_⟩
  rw [mem_blk]
  intro a
  match a with
  | ⟨0, _⟩ =>
    show win2_7.index ⟨(i 0).val / 5000, ht⟩ 0 * 5000 ≤ (i 0).val ∧ (i 0).val < win2_7.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win2_7.index ⟨(i 0).val / 5000, ht⟩ 1 * 8 ≤ (i 1).val ∧ (i 1).val < win2_7.index ⟨(i 0).val / 5000, ht⟩ 1 * 8 + 8
    rw [e1]; omega

/-- The output array after the launch is the head of the third dense layer of the input array. -/
theorem final (c : Dev nD) : (dat2 V c).arrAt 7 cfg2.N = result V c :=
  (dat2 V c).arrAt_eq_of_cover 7 (result V c) (fun t _ => flushed_eq V c t) cover

end Cert.KernelIdeal.Reg2

end
-- ==== Proof.KernelRun.lean ====
/-
  The kernel program's run with its result named.

  @main is ten segments: five stretches of host operations (the degree normalisations and the first aggregation), the
  first dense launch, a host stretch (the second aggregation), the second dense launch, a host stretch (the third
  aggregation), the head launch. The contents of the TensorCore's buffers at the boundaries are a fold from the launch
  memory: after a host stretch, that stretch's operations applied; after a launch, the launch's arrays at what its
  write-backs leave and everything else as it was. Every weakly fair execution terminates, nothing faults, and in the
  final memory EVERY unscoped buffer holds the last boundary's contents — in particular the result buffer, which is
  what a value claim needs beside the unchanged arguments.
-/
import proofs.«149673_j85057532330070_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents `W10`, and the argument arrays end as launched. -/
theorem run : θ_run defs (onTc (τ := τ) (main (F := F))) ⟨m, fun _ => 0, ρ⟩ (fun r => ∀ c : Dev nD,
      r.2.mem ((c.tc : Thread nD τ).loc main_v69) = W10 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v69 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.RunV

end
-- ==== Proof.KernelValue.lean ====
/-
  The kernel program's result: the network of HostTerms.lean on the launch contents of its thirteen arguments.

  Each launch's output array is the dense layer (the last: the head of the dense layer) of the array the launch reads,
  the arrays the launches read are aggregations of the previous output, and the weights, biases, endpoint arrays and
  normalisations reach every boundary unchanged; composing the three rounds gives the network.
-/
import proofs.«149673_j85057532330070_1_alg».proof.Proof.KernelHost
import proofs.«149673_j85057532330070_1_alg».proof.Proof.Region0
import proofs.«149673_j85057532330070_1_alg».proof.Proof.Region1
import proofs.«149673_j85057532330070_1_alg».proof.Proof.Region2
import proofs.«149673_j85057532330070_1_alg».proof.Proof.KernelRun

set_option maxRecDepth 16384

noncomputable section

namespace Cert.KernelIdeal.Val

open Cert.KernelIdeal Cert.KernelIdeal.Gen Cert.KernelIdeal.Glue
open Idealize.ShloMosaic Idealize.ShloMosaic.TcCoe Idealize.SL.Sem
open Cert.Gnn

variable (m : (ℓ : Loc nD τ sig) → Buf (Elt Ideal) ℓ) (ρ : Dev nD → PrngReg)

/-! ## The first launch -/

theorem out0_arr (c : Dev nD) : W6 m ρ c (Proc.devRef .tc main_v35) = (dat0 (V5 m ρ) c).arrAt 3 cfg0.N := W6_arr m ρ c 3

theorem out0_dense (c : Dev nD) : (dat0 (V5 m ρ) c).arrAt 3 cfg0.N
    = denseLayer (F := Ideal) (V5 m ρ c main_v34) (V5 m ρ c main_arg3) (V5 m ρ c main_arg4) := Reg0.final (V5 m ρ) c

theorem in0_values (c : Dev nD) : denseLayer (F := Ideal) (V5 m ρ c main_v34) (V5 m ρ c main_arg3) (V5 m ρ c main_arg4) = (denseLayer (F := Ideal) (aggregate (degNorm (m ((c : Thread nD τ).loc main_arg1))) (degNorm (m ((c : Thread nD τ).loc main_arg2))) (m ((c : Thread nD τ).loc main_arg0)) (m ((c : Thread nD τ).loc main_arg1)) (m ((c : Thread nD τ).loc main_arg2))) (m ((c : Thread nD τ).loc main_arg3)) (m ((c : Thread nD τ).loc main_arg4))) := by
  rw [show V5 m ρ c main_v34 = _ from W5_v34 m ρ c, show V5 m ρ c main_arg3 = _ from W5_arg3 m ρ c,
    show V5 m ρ c main_arg4 = _ from W5_arg4 m ρ c]

/-- The first launch's output: the first dense layer of the first aggregation. -/
theorem W6_v35 (c : Dev nD) : W6 m ρ c (Proc.devRef .tc main_v35) = (denseLayer (F := Ideal) (aggregate (degNorm (m ((c : Thread nD τ).loc main_arg1))) (degNorm (m ((c : Thread nD τ).loc main_arg2))) (m ((c : Thread nD τ).loc main_arg0)) (m ((c : Thread nD τ).loc main_arg1)) (m ((c : Thread nD τ).loc main_arg2))) (m ((c : Thread nD τ).loc main_arg3)) (m ((c : Thread nD τ).loc main_arg4))) :=
  (out0_arr m ρ c).trans ((out0_dense m ρ c).trans (in0_values m ρ c))

/-! ## The second launch -/

theorem out1_arr (c : Dev nD) : W8 m ρ c (Proc.devRef .tc main_v52) = (dat1 (V7 m ρ) c).arrAt 3 cfg1.N := W8_arr m ρ c 3

theorem out1_dense (c : Dev nD) : (dat1 (V7 m ρ) c).arrAt 3 cfg1.N
    = denseLayer (F := Ideal) (V7 m ρ c main_v51) (V7 m ρ c main_arg5) (V7 m ρ c main_arg6) := Reg1.final (V7 m ρ) c

theorem in1_values (c : Dev nD) : denseLayer (F := Ideal) (V7 m ρ c main_v51) (V7 m ρ c main_arg5) (V7 m ρ c main_arg6) = (denseLayer (F := Ideal) (aggregate (degNorm (m ((c : Thread nD τ).loc main_arg1))) (degNorm (m ((c : Thread nD τ).loc main_arg2))) (denseLayer (F := Ideal) (aggregate (degNorm (m ((c : Thread nD τ).loc main_arg1))) (degNorm (m ((c : Thread nD τ).loc main_arg2))) (m ((c : Thread nD τ).loc main_arg0)) (m ((c : Thread nD τ).loc main_arg1)) (m ((c : Thread nD τ).loc main_arg2))) (m ((c : Thread nD τ).loc main_arg3)) (m ((c : Thread nD τ).loc main_arg4))) (m ((c : Thread nD τ).loc main_arg1)) (m ((c : Thread nD τ).loc main_arg2))) (m ((c : Thread nD τ).loc main_arg5)) (m ((c : Thread nD τ).loc main_arg6))) := by
  rw [show V7 m ρ c main_v51 = _ from W7_v51 m ρ c, show V7 m ρ c main_arg5 = _ from W7_arg5 m ρ c,
    show V7 m ρ c main_arg6 = _ from W7_arg6 m ρ c, W6_v35 m ρ c]

/-- The second launch's output: the second dense layer of the aggregation of the first. -/
theorem W8_v52 (c : Dev nD) : W8 m ρ c (Proc.devRef .tc main_v52) = (denseLayer (F := Ideal) (aggregate (degNorm (m ((c : Thread nD τ).loc main_arg1))) (degNorm (m ((c : Thread nD τ).loc main_arg2))) (denseLayer (F := Ideal) (aggregate (degNorm (m ((c : Thread nD τ).loc main_arg1))) (degNorm (m ((c : Thread nD τ).loc main_arg2))) (m ((c : Thread nD τ).loc main_arg0)) (m ((c : Thread nD τ).loc main_arg1)) (m ((c : Thread nD τ).loc main_arg2))) (m ((c : Thread nD τ).loc main_arg3)) (m ((c : Thread nD τ).loc main_arg4))) (m ((c : Thread nD τ).loc main_arg1)) (m ((c : Thread nD τ).loc main_arg2))) (m ((c : Thread nD τ).loc main_arg5)) (m ((c : Thread nD τ).loc main_arg6))) :=
  (out1_arr m ρ c).trans ((out1_dense m ρ c).trans (in1_values m ρ c))

/-! ## The head launch -/

theorem out2_arr (c : Dev nD) : W10 m ρ c (Proc.devRef .tc main_v69) = (dat2 (V9 m ρ) c).arrAt 7 cfg2.N := W10_arr m ρ c 7

theorem out2_head (c : Dev nD) : (dat2 (V9 m ρ) c).arrAt 7 cfg2.N
    = softmax (logits (gated (denseLayer (F := Ideal) (V9 m ρ c main_v68) (V9 m ρ c main_arg7) (V9 m ρ c main_arg8))
        (V9 m ρ c main_arg9) (V9 m ρ c main_arg10)) (V9 m ρ c main_arg11) (V9 m ρ c main_arg12)) := Reg2.final (V9 m ρ) c

theorem in2_values (c : Dev nD) :
    softmax (logits (gated (denseLayer (F := Ideal) (V9 m ρ c main_v68) (V9 m ρ c main_arg7) (V9 m ρ c main_arg8))
        (V9 m ρ c main_arg9) (V9 m ρ c main_arg10)) (V9 m ρ c main_arg11) (V9 m ρ c main_arg12))
      = softmax (logits (gated (denseLayer (F := Ideal) (aggregate (degNorm (m ((c : Thread nD τ).loc main_arg1))) (degNorm (m ((c : Thread nD τ).loc main_arg2))) (denseLayer (F := Ideal) (aggregate (degNorm (m ((c : Thread nD τ).loc main_arg1))) (degNorm (m ((c : Thread nD τ).loc main_arg2))) (denseLayer (F := Ideal) (aggregate (degNorm (m ((c : Thread nD τ).loc main_arg1))) (degNorm (m ((c : Thread nD τ).loc main_arg2))) (m ((c : Thread nD τ).loc main_arg0)) (m ((c : Thread nD τ).loc main_arg1)) (m ((c : Thread nD τ).loc main_arg2))) (m ((c : Thread nD τ).loc main_arg3)) (m ((c : Thread nD τ).loc main_arg4))) (m ((c : Thread nD τ).loc main_arg1)) (m ((c : Thread nD τ).loc main_arg2))) (m ((c : Thread nD τ).loc main_arg5)) (m ((c : Thread nD τ).loc main_arg6))) (m ((c : Thread nD τ).loc main_arg1)) (m ((c : Thread nD τ).loc main_arg2))) (m ((c : Thread nD τ).loc main_arg7)) (m ((c : Thread nD τ).loc main_arg8)))
        (m ((c : Thread nD τ).loc main_arg9)) (m ((c : Thread nD τ).loc main_arg10))) (m ((c : Thread nD τ).loc main_arg11)) (m ((c : Thread nD τ).loc main_arg12))) := by
  rw [show V9 m ρ c main_v68 = _ from W9_v68 m ρ c, show V9 m ρ c main_arg7 = _ from W9_arg7 m ρ c,
    show V9 m ρ c main_arg8 = _ from W9_arg8 m ρ c, show V9 m ρ c main_arg9 = _ from W9_arg9 m ρ c,
    show V9 m ρ c main_arg10 = _ from W9_arg10 m ρ c, show V9 m ρ c main_arg11 = _ from W9_arg11 m ρ c,
    show V9 m ρ c main_arg12 = _ from W9_arg12 m ρ c, W8_v52 m ρ c]

/-- The three rounds composed are the network. -/
theorem network_eq (c : Dev nD) :
    softmax (logits (gated (denseLayer (F := Ideal) (aggregate (degNorm (m ((c : Thread nD τ).loc main_arg1))) (degNorm (m ((c : Thread nD τ).loc main_arg2))) (denseLayer (F := Ideal) (aggregate (degNorm (m ((c : Thread nD τ).loc main_arg1))) (degNorm (m ((c : Thread nD τ).loc main_arg2))) (denseLayer (F := Ideal) (aggregate (degNorm (m ((c : Thread nD τ).loc main_arg1))) (degNorm (m ((c : Thread nD τ).loc main_arg2))) (m ((c : Thread nD τ).loc main_arg0)) (m ((c : Thread nD τ).loc main_arg1)) (m ((c : Thread nD τ).loc main_arg2))) (m ((c : Thread nD τ).loc main_arg3)) (m ((c : Thread nD τ).loc main_arg4))) (m ((c : Thread nD τ).loc main_arg1)) (m ((c : Thread nD τ).loc main_arg2))) (m ((c : Thread nD τ).loc main_arg5)) (m ((c : Thread nD τ).loc main_arg6))) (m ((c : Thread nD τ).loc main_arg1)) (m ((c : Thread nD τ).loc main_arg2))) (m ((c : Thread nD τ).loc main_arg7)) (m ((c : Thread nD τ).loc main_arg8)))
        (m ((c : Thread nD τ).loc main_arg9)) (m ((c : Thread nD τ).loc main_arg10))) (m ((c : Thread nD τ).loc main_arg11)) (m ((c : Thread nD τ).loc main_arg12)))
      = network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := rfl

/-- The head launch's output: the network. -/
theorem W10_v69 (c : Dev nD) : W10 m ρ c (Proc.devRef .tc main_v69) = network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (out2_arr m ρ c).trans ((out2_head m ρ c).trans ((in2_values m ρ c).trans (network_eq m c)))

/-- The kernel program's run: it terminates without a fault, its result is the network on the arguments' launch contents,
    and the arguments end unchanged. -/
theorem run : θ_run defs (onTc (τ := τ) (main (F := Ideal))) ⟨m, fun _ => 0, ρ⟩ (fun r => ∀ c : Dev nD,
      r.2.mem ((c.tc : Thread nD τ).loc main_v69) = network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (W10_v69 m ρ c), (h c).2⟩) (Cert.KernelIdeal.RunV.run m ρ)

end Cert.KernelIdeal.Val

end
-- ==== Proof.lean ====
/-
  The certificate of a three-layer graph network: three rounds of message passing (scale by the source degree
  normalisation, gather a row per edge, scatter-add into the destination nodes, scale by the destination normalisation),
  each followed by a dense layer with a rectifier, then an attention gate, a classifier and a softmax over eight classes.

  The kernel program keeps the message passing on the host and runs the dense parts as three kernel launches over twenty
  blocks of 5000 rows; the reference does everything on the host. At the exact values both compute, entry by entry,
  the same function: a dense layer's entry is  max(Σₖ a(p,k)·W(k,q) + b(q), 0)  whether the row p sits in a block or in
  the whole array, a matrix product in the kernel (operands rounded to bf16 on the way in, which is the identity at the
  exact values) and on the host is the same sum, the head's lane sum against the attention column is the host's product
  with that column, the logistic is 1/(1+e^(−x)) on both sides, and the softmax subtracts the same row maximum and divides
  by the same row sum. The host operations between the launches are the reference's own, so they are carried as the same
  terms on both sides and never opened. No law used needs finiteness; the precondition is not opened.

  The three frames: the two kernel programs' by the generated frame certificates; the reference's by its run with the
  result dropped. Nothing was rewritten by the idealization, so `preserves` is trivial.
-/
import proofs.«149673_j85057532330070_1_alg».proof.Defs
import proofs.«149673_j85057532330070_1_alg».proof.Proof.Gen.Kernel
import proofs.«149673_j85057532330070_1_alg».proof.Proof.Gen.Kernel.Skeleton
import proofs.«149673_j85057532330070_1_alg».proof.Proof.Gen.Kernel.Launch
import proofs.«149673_j85057532330070_1_alg».proof.Proof.Gen.Kernel.Points
import proofs.«149673_j85057532330070_1_alg».proof.Proof.Gen.Kernel.Frame
import proofs.«149673_j85057532330070_1_alg».proof.Proof.Gen.KernelIdeal
import proofs.«149673_j85057532330070_1_alg».proof.Proof.Gen.KernelIdeal.Skeleton
import proofs.«149673_j85057532330070_1_alg».proof.Proof.Gen.KernelIdeal.Launch
import proofs.«149673_j85057532330070_1_alg».proof.Proof.Gen.KernelIdeal.Points
import proofs.«149673_j85057532330070_1_alg».proof.Proof.Gen.KernelIdeal.Frame
import proofs.«149673_j85057532330070_1_alg».proof.Proof.Gen.ReferenceIdeal
import proofs.«149673_j85057532330070_1_alg».proof.Proof.Gen.Pre_finite_inputs
import proofs.«149673_j85057532330070_1_alg».proof.Proof.RefRun
import proofs.«149673_j85057532330070_1_alg».proof.Proof.RefValue
import proofs.«149673_j85057532330070_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- Both programs end with the network on the arguments: the kernel program by its run read through the three launches,
    the reference by its run's composed term, and the two are given the same arguments. -/
theorem algebraic : Cert.algebraic_KernelIdeal_ReferenceIdeal := by
  intro m ρ m' ρ' _ hagree
  refine ⟨fun c => Cert.Gnn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.Val.run m ρ, ?_⟩
  refine (θ_run Cert.ReferenceIdeal.defs _ _).mono (fun _ h c => ⟨(h c).1.trans ?_, (h c).2⟩)
    (Cert.ReferenceIdeal.RunP.run (F := Ideal) m' ρ')
  rw [Cert.Gnn.ref_result]
  obtain ⟨e0, e1, e2, e3, e4, e5, e6, e7, e8, e9, e10, e11, e12⟩ := hagree c
  rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
